-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S2x3200000 : Shape := ⟨2, ![2, 3200000]⟩
abbrev S500x16 : Shape := ⟨2, ![500, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S500x16 : S_.BroadcastsInDim S500x16 (![] : Fin 0 → Fin S500x16.rank)
  reducesTo_S500x16_S_d0_1 : S500x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x500 .f32) (main_arg1 : IVec S2x3200000 32) (main_arg2 : FVec F S500x16 .f32) (main_arg3 : FVec F S16 .f32) (main_arg4 : FVec F S16x40 .f32) (main_arg5 : FVec F S40 .f32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S500x16 .f32 := Host.absf main_arg2
  let main_cst_0 : FVec F S_ .f32 := constant S_ .f32 0x7F800000#32
  let main_v5 : FVec F S500x16 .f32 := broadcastInDim S500x16 ![] bcast_S_S500x16 main_cst_0
  let main_v6 : IVec S500x16 1 := cmpf .olt main_v4 main_v5
  let main_c_1 : IVec S_ 1 := constantI S_ 1 1#1
  let main_v7 : IVec S_ 1 := (fun x v => Host.reduce IntOp.andi x v reducesTo_S500x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x500 : Shape := ⟨2, ![100000, 500]⟩
abbrev S2x3200000 : Shape := ⟨2, ![2, 3200000]⟩
abbrev S500x16 : Shape := ⟨2, ![500, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S4000x500 : Shape := ⟨2, ![4000, 500]⟩
abbrev S4000x16 : Shape := ⟨2, ![4000, 16]⟩
abbrev S3300000x16 : Shape := ⟨2, ![3300000, 16]⟩
abbrev S1x16 : Shape := ⟨2, ![1, 16]⟩
abbrev S100000x40 : Shape := ⟨2, ![100000, 40]⟩
abbrev S4000x40 : Shape := ⟨2, ![4000, 40]⟩
abbrev S3300000x40 : Shape := ⟨2, ![3300000, 40]⟩
abbrev S1x40 : Shape := ⟨2, ![1, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 90
  | .vmem => 14
  | .smem => 0
  | _ => 0

abbrev bufTy : (tb : Table) → Fin (tcTables nBuf tb) → BufTy
  | .hbm, ⟨0, _⟩ => ⟨S100000x500, .f32⟩
  | .hbm, ⟨1, _⟩ => ⟨S2x3200000, .i32⟩
  | .hbm, ⟨2, _⟩ => ⟨S500x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x40, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x40, .f32⟩
  | .hbm, ⟨79, _⟩ => ⟨S3300000x1, .f32⟩
  | .hbm, ⟨80, _⟩ => ⟨S3300000x40, .f32⟩
  | .hbm, ⟨81, _⟩ => ⟨S3300000x40, .f32⟩
  | .hbm, ⟨82, _⟩ => ⟨S_, .f32⟩
  | .hbm, ⟨83, _⟩ => ⟨S100000x40, .f32⟩
  | .hbm, ⟨84, _⟩ => ⟨S3300000x1, .i32⟩
  | .hbm, ⟨85, _⟩ => ⟨S100000x40, .f32⟩
  | .hbm, ⟨86, _⟩ => ⟨S1x40, .f32⟩
  | .hbm, ⟨87, _⟩ => ⟨S100000x40, .f32⟩
  | .hbm, ⟨88, _⟩ => ⟨S100000x40, .f32⟩
  | .hbm, ⟨89, _⟩ => ⟨S100000x40, .f32⟩
  | .local _ .vmem, ⟨0, _⟩ => ⟨S4000x500, .f32⟩
  | .local _ .vmem, ⟨1, _⟩ => ⟨S4000x500, .f32⟩
  | .local _ .vmem, ⟨2, _⟩ => ⟨S500x16, .f32⟩
  | .local _ .vmem, ⟨3, _⟩ => ⟨S4000x16, .f32⟩
  | .local _ .vmem, ⟨4, _⟩ => ⟨S4000x16, .f32⟩
  | .local _ .vmem, ⟨5, _⟩ => ⟨S4000x16, .f32⟩
  | .local _ .vmem, ⟨6, _⟩ => ⟨S4000x16, .f32⟩
  | .local _ .vmem, ⟨7, _⟩ => ⟨S16x40, .f32⟩
  | .local _ .vmem, ⟨8, _⟩ => ⟨S4000x40, .f32⟩
  | .local _ .vmem, ⟨9, _⟩ => ⟨S4000x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S5000x40, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S4000x500_S4000x500_0_0 : ∀ a, (![0, 0] : Fin 2 → Nat) a + S4000x500.size a ≤ S4000x500.size a
  h_S4000x500 : 0 < S4000x500.numel
  bitsLt_bf16_f32 : FTy.bits .bf16 < FTy.bits .f32
  inb_S500x16_S500x16_0_0 : ∀ a, (![0, 0] : Fin 2 → Nat) a + S500x16.size a ≤ S500x16.size a
  h_S500x16 : 0 < S500x16.numel
  inb_S4000x16_S4000x16_0_0 : ∀ a, (![0, 0] : Fin 2 → Nat) a + S4000x16.size a ≤ S4000x16.size a
  h_S4000x16 : 0 < S4000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S4000x16_S4000x16 : S4000x16.ShapeCasts S4000x16
  inb_S16x40_S16x40_0_0 : ∀ a, (![0, 0] : Fin 2 → Nat) a + S16x40.size a ≤ S16x40.size a
  h_S16x40 : 0 < S16x40.numel
  inb_S4000x40_S4000x40_0_0 : ∀ a, (![0, 0] : Fin 2 → Nat) a + S4000x40.size a ≤ S4000x40.size a
  h_S4000x40 : 0 < S4000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  inb_S5000x40_S5000x40_0_0 : ∀ a, (![0, 0] : Fin 2 → Nat) a + S5000x40.size a ≤ S5000x40.size a
  h_S5000x40 : 0 < S5000x40.numel
  shapeCasts_S5000x40_S5000x40 : S5000x40.ShapeCasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x500_S500x16_S4000x16_1_0_0_1_n_n_wf : DotDims.WF S4000x500 S500x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S4000x16_S16x40_S4000x40_1_0_0_1_n_n_wf : DotDims.WF S4000x16 S16x40 S4000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x500.size a ≤ S100000x500.size a
  hwx0_0 : ∀ i : grid0.Coords, EltTy.bits .f32 = 32 ∨ (Rect.block (s := S100000x500) S4000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x16.size a ≤ S500x16.size a
  hwx0_1 : ∀ i : grid0.Coords, EltTy.bits .f32 = 32 ∨ (Rect.block (s := S500x16) S500x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x40.size a ≤ S16x40.size a
  hwx1_1 : ∀ i : grid1.Coords, EltTy.bits .f32 = 32 ∨ (Rect.block (s := S16x40) S16x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x40.size a ≤ S100000x40.size a
  hwx1_2 : ∀ i : grid1.Coords, EltTy.bits .f32 = 32 ∨ (Rect.block (s := S100000x40) S4000x40.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x40.size a ≤ S100000x40.size a
  hwx2_1 : ∀ i : grid2.Coords, EltTy.bits .f32 = 32 ∨ (Rect.block (s := S100000x40) S5000x40.size (cc2_transform_1 i) (hinb2_1 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x500_S500x16_S4000x16_1_0_0_1_n_n : DotDims S4000x500 S500x16 S4000x16 where
  lhsContracting := [1]
  rhsContracting := [0]
  lhsNonContracting := [0]
  rhsNonContracting := [1]
  lhsBatch := []
  rhsBatch := []
  wf := dot_S4000x500_S500x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S4000x16_S16x40_S4000x40_1_0_0_1_n_n : DotDims S4000x16 S16x40 S4000x40 where
  lhsContracting := [1]
  rhsContracting := [0]
  lhsNonContracting := [0]
  rhsNonContracting := [1]
  lhsBatch := []
  rhsBatch := []
  wf := dot_S4000x16_S16x40_S4000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S4000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S500x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S4000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v64) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S5000x40.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x500 : Shape := ⟨2, ![100000, 500]⟩
abbrev S2x3200000 : Shape := ⟨2, ![2, 3200000]⟩
abbrev S500x16 : Shape := ⟨2, ![500, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S100000x16 : Shape := ⟨2, ![100000, 16]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 140
  | .vmem => 0
  | .smem => 0
  | _ => 0

abbrev hbmTy0_0 (i : Nat) : BufTy := match i % 128 with
  | 0 => ⟨S100000x500, .f32⟩
  | 1 => ⟨S2x3200000, .i32⟩
  | 2 => ⟨S500x16, .f32⟩
  | 3 => ⟨S16, .f32⟩
  | 4 => ⟨S16x40, .f32⟩
  | 5 => ⟨S40, .f32⟩
  | 6 => ⟨S1x3200000, .i32⟩
  | 7 => ⟨S3200000, .i32⟩
  | 8 => ⟨S1x3200000, .i32⟩
  | 9 => ⟨S3200000, .i32⟩
  | 10 => ⟨S100000x16, .f32⟩
  | 11 => ⟨S100000, .i32⟩
  | 12 => ⟨S3300000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x40, .f32⟩
  | 70 => ⟨S100000, .i32⟩
  | 71 => ⟨S3300000, .i32⟩
  | 72 => ⟨S3300000, .i32⟩
  | 73 => ⟨S_, .f32⟩
  | 74 => ⟨S3300000, .f32⟩
  | 75 => ⟨S_, .f32⟩
  | 76 => ⟨S100000, .f32⟩
  | 77 => ⟨S3300000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S3300000, .i32⟩
  | 89 => ⟨S3300000, .i1⟩
  | 90 => ⟨S_, .i32⟩
  | 91 => ⟨S3300000, .i32⟩
  | 92 => ⟨S3300000, .i32⟩
  | 93 => ⟨S3300000, .i32⟩
  | 94 => ⟨S3300000x1, .i32⟩
  | 95 => ⟨S3300000, .f32⟩
  | 96 => ⟨S_, .i32⟩
  | 97 => ⟨S3300000, .i32⟩
  | 98 => ⟨S3300000, .i1⟩
  | 99 => ⟨S_, .i32⟩
  | 100 => ⟨S3300000, .i32⟩
  | 101 => ⟨S3300000, .i32⟩
  | 102 => ⟨S3300000, .i32⟩
  | 103 => ⟨S3300000x1, .i32⟩
  | 104 => ⟨S3300000, .f32⟩
  | 105 => ⟨S3300000, .f32⟩
  | 106 => ⟨S_, .i32⟩
  | 107 => ⟨S3300000, .i32⟩
  | 108 => ⟨S3300000, .i1⟩
  | 109 => ⟨S_, .i32⟩
  | 110 => ⟨S3300000, .i32⟩
  | 111 => ⟨S3300000, .i32⟩
  | 112 => ⟨S3300000, .i32⟩
  | 113 => ⟨S3300000x1, .i32⟩
  | 114 => ⟨S3300000x40, .f32⟩
  | 115 => ⟨S3300000x1, .f32⟩
  | 116 => ⟨S3300000x40, .f32⟩
  | 117 => ⟨S3300000x40, .f32⟩
  | 118 => ⟨S_, .f32⟩
  | 119 => ⟨S100000x40, .f32⟩
  | 120 => ⟨S3300000x1, .i32⟩
  | 121 => ⟨S100000x40, .f32⟩
  | 122 => ⟨S1x40, .f32⟩
  | 123 => ⟨S100000x40, .f32⟩
  | 124 => ⟨S100000x40, .f32⟩
  | 125 => ⟨S_, .f32⟩
  | 126 => ⟨S100000, .f32⟩
  | 127 => ⟨S_, .f32⟩
  | _ => ⟨S100000x500, .f32⟩

abbrev hbmTy0_1 (i : Nat) : BufTy := match i % 128 with
  | 0 => ⟨S100000, .f32⟩
  | 1 => ⟨S100000, .f32⟩
  | 2 => ⟨S100000x1, .f32⟩
  | 3 => ⟨S100000x40, .f32⟩
  | 4 => ⟨S100000x40, .f32⟩
  | 5 => ⟨S100000x40, .f32⟩
  | 6 => ⟨S_, .f32⟩
  | 7 => ⟨S100000, .f32⟩
  | 8 => ⟨S100000x1, .f32⟩
  | 9 => ⟨S100000x1, .f32⟩
  | 10 => ⟨S100000x40, .f32⟩
  | 11 => ⟨S100000x40, .f32⟩
  | _ => ⟨S100000x500, .f32⟩

abbrev hbmTy (i : Nat) : BufTy := match i / 128 with
  | 0 => hbmTy0_0 i
  | 1 => hbmTy0_1 i
  | _ => ⟨S100000x500, .f32⟩

abbrev bufTy : (tb : Table) → Fin (tcTables nBuf tb) → BufTy
  | .hbm, ⟨i, _⟩ => hbmTy i
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_call3_cst_0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_cst_1 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x500_S500x16_S100000x16_1_0_0_1_n_n_wf : DotDims.WF S100000x500 S500x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def dot_S100000x500_S500x16_S100000x16_1_0_0_1_n_n : DotDims S100000x500 S500x16 S100000x16 where
  lhsContracting := [1]
  rhsContracting := [0]
  lhsNonContracting := [0]
  rhsNonContracting := [1]
  lhsBatch := []
  rhsBatch := []
  wf := dot_S100000x500_S500x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.KernelRun.lean ====
/-
  The idealized kernel's run with its RESULT named. @main is nine segments: three stretches of host operations, the
  first linear layer's matrix product as a grid of 25 row blocks, two more stretches, the second layer's product
  (25 row blocks), one stretch, and the row-wise log-softmax (20 row blocks). The launch theorem for a list of
  segments ends with every unscoped buffer of core `c` at the last boundary's contents `W9 m ρ c`; the frame reads only
  the argument arrays back from it. Here the same end state is read at the result array as well: after every weakly
  fair execution the result holds `W9 m ρ c` at its buffer, and the six arguments are as launched.
-/
import proofs.«121774_j19018115187322_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the argument arrays as launched. -/
theorem run_result : θ_run defs (onTc (τ := τ) (main (F := F))) ⟨m, fun _ => 0, ρ⟩ (fun r => ∀ c : Dev nD,
      r.2.mem ((c.tc : Thread nD τ).loc main_v65) = W9 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v65 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Whole

end
-- ==== Proof.Layers.lean ====
/-
  A two-layer graph convolution followed by a row-wise log-softmax, as pure functions of the argument arrays.
  The edge list `e` (2 × 3,200,000 node ids) is extended by one self-loop per node: `srcF e` and `dstF e` are the
  3,300,000 sources and destinations. The degree of a node is the number of extended edges that end in it
  (`deg`), `dis` is its inverse square root where the degree is positive and zero elsewhere, and the weight of an
  edge is the product of `dis` at its two ends (`norm`). A negative node id counts from the end (`wrap`).
  One aggregation (`agg16`, `agg40`: the same at feature widths 16 and 40) sends each node's feature row along every
  edge that leaves it, scaled by the edge's weight, sums what arrives at each node, and adds the bias row.
  The network: `x · W1`, aggregated, clamped below at zero; times `W2`, aggregated; then in each row every entry minus
  the row's maximum, minus the logarithm of the row's sum of exponentials of those differences (`logSoftmax`).
-/
import proofs.«121774_j19018115187322_1_alg».proof.Proof.Gen.ReferenceIdeal
import Idealize.ShloMosaic.PureOps.Ideal

noncomputable section

namespace Cert.Layers

open Cert.ReferenceIdeal Cert.ReferenceIdeal.Gen Idealize.ShloMosaic Idealize.ShloMosaic.TcCoe

variable {F : FTy → Type} [FloatOps F]

/-- Row 0 of the edge list (the sources as given) and row 1 (the destinations as given). -/
def row0 (e : (⟨S2x3200000, .i32⟩ : BufTy).Contents (Elt F)) : (⟨S3200000, .i32⟩ : BufTy).Contents (Elt F) :=
  shapeCast _ (extractStridedSlice S1x3200000 ![0, 0] e slices_S2x3200000_S1x3200000_0_0) shapeCasts_S1x3200000_S3200000
def row1 (e : (⟨S2x3200000, .i32⟩ : BufTy).Contents (Elt F)) : (⟨S3200000, .i32⟩ : BufTy).Contents (Elt F) :=
  shapeCast _ (extractStridedSlice S1x3200000 ![1, 0] e slices_S2x3200000_S1x3200000_1_0) shapeCasts_S1x3200000_S3200000

/-- A list of 3,200,000 node ids extended by every node once (the self-loops). -/
def ends (r : (⟨S3200000, .i32⟩ : BufTy).Contents (Elt F)) : (⟨S3300000, .i32⟩ : BufTy).Contents (Elt F) :=
  concatenate S3300000 0 [⟨S3200000, r⟩, ⟨S100000, (iotaInDim S100000 32 0)⟩] concatenates_S3200000_S100000_S3300000_d0

/-- The sources and the destinations of the extended edge list. -/
def srcF (e : (⟨S2x3200000, .i32⟩ : BufTy).Contents (Elt F)) : (⟨S3300000, .i32⟩ : BufTy).Contents (Elt F) := ends (row0 e)
def dstF (e : (⟨S2x3200000, .i32⟩ : BufTy).Contents (Elt F)) : (⟨S3300000, .i32⟩ : BufTy).Contents (Elt F) := ends (row1 e)

/-- A list of node ids as a column of row indices. -/
def col (v : (⟨S3300000, .i32⟩ : BufTy).Contents (Elt F)) : (⟨S3300000x1, .i32⟩ : BufTy).Contents (Elt F) :=
  broadcastInDim S3300000x1 ![0] bcast_S3300000_S3300000x1_0 v

/-- The same with a negative id counted from the end (id + 100000). -/
def wrap (v : (⟨S3300000, .i32⟩ : BufTy).Contents (Elt F)) : (⟨S3300000x1, .i32⟩ : BufTy).Contents (Elt F) :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- The number of extended edges ending in each node, from the destinations `d`. -/
def deg (d : (⟨S3300000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant (F := F) S_ .f32 0x00000000#32))
    (col d)
    (broadcastInDim S3300000 ![] bcast_S_S3300000 (constant (F := F) S_ .f32 0x3F800000#32))

/-- Its inverse square root where positive, zero elsewhere. -/
def dis (d : (⟨S3300000, .i32⟩ : BufTy).Contents (Elt F)) : (⟨S100000, .f32⟩ : BufTy).Contents (Elt F) :=
  select (cmpf .ogt (deg d) (broadcastInDim S100000 ![] bcast_S_S100000 (constant (F := F) S_ .f32 0x00000000#32)))
    (Host.rsqrt (deg d))
    (broadcastInDim S100000 ![] bcast_S_S100000 (id (constant (F := F) S_ .f32 0x00000000#32)))

/-- The weight of each extended edge: `dis` at its source times `dis` at its destination. -/
def norm (s d : (⟨S3300000, .i32⟩ : BufTy).Contents (Elt F)) : (⟨S3300000, .f32⟩ : BufTy).Contents (Elt F) :=
  mulf (Host.gather gather_S100000_S3300000x1_S3300000_n_0_n_n_0_1_1 (dis d) (wrap s))
    (Host.gather gather_S100000_S3300000x1_S3300000_n_0_n_n_0_1_1 (dis d) (wrap d))

/-- One aggregation at feature width 16: rows of `h` sent along the edges, scaled, summed at the destinations, plus `b`. -/
def agg16 (h : (⟨S100000x16, .f32⟩ : BufTy).Contents (Elt F)) (src dst : (⟨S3300000, .i32⟩ : BufTy).Contents (Elt F))
    (w : (⟨S3300000, .f32⟩ : BufTy).Contents (Elt F)) (b : (⟨S16, .f32⟩ : BufTy).Contents (Elt F)) :
    (⟨S100000x16, .f32⟩ : BufTy).Contents (Elt F) :=
  addf
    (Host.scatterAdd scatter_S100000x16_S3300000x1_S3300000x16_1_0_0_1
      (broadcastInDim S100000x16 ![] bcast_S_S100000x16 (constant (F := F) S_ .f32 0x00000000#32))
      (col dst)
      (mulf (Host.gather gather_S100000x16_S3300000x1_S3300000x16_1_0_n_n_0_1_116 h (wrap src))
        (broadcastInDim S3300000x16 ![0, 1] bcast_S3300000x1_S3300000x16_0_1
          (broadcastInDim S3300000x1 ![0] bcast_S3300000_S3300000x1_0 w))))
    (broadcastInDim S100000x16 ![0, 1] bcast_S1x16_S100000x16_0_1 (broadcastInDim S1x16 ![1] bcast_S16_S1x16_1 b))

/-- Clamped below at zero. -/
def relu16 (a : (⟨S100000x16, .f32⟩ : BufTy).Contents (Elt F)) : (⟨S100000x16, .f32⟩ : BufTy).Contents (Elt F) :=
  maximumf a (broadcastInDim S100000x16 ![] bcast_S_S100000x16 (constant (F := F) S_ .f32 0x00000000#32))

/-- One aggregation at feature width 40. -/
def agg40 (h : (⟨S100000x40, .f32⟩ : BufTy).Contents (Elt F)) (src dst : (⟨S3300000, .i32⟩ : BufTy).Contents (Elt F))
    (w : (⟨S3300000, .f32⟩ : BufTy).Contents (Elt F)) (b : (⟨S40, .f32⟩ : BufTy).Contents (Elt F)) :
    (⟨S100000x40, .f32⟩ : BufTy).Contents (Elt F) :=
  addf
    (Host.scatterAdd scatter_S100000x40_S3300000x1_S3300000x40_1_0_0_1
      (broadcastInDim S100000x40 ![] bcast_S_S100000x40 (constant (F := F) S_ .f32 0x00000000#32))
      (col dst)
      (mulf (Host.gather gather_S100000x40_S3300000x1_S3300000x40_1_0_n_n_0_1_140 h (wrap src))
        (broadcastInDim S3300000x40 ![0, 1] bcast_S3300000x1_S3300000x40_0_1
          (broadcastInDim S3300000x1 ![0] bcast_S3300000_S3300000x1_0 w))))
    (broadcastInDim S100000x40 ![0, 1] bcast_S1x40_S100000x40_0_1 (broadcastInDim S1x40 ![1] bcast_S40_S1x40_1 b))

/-- Every entry minus its row's maximum (the maximum taken from -∞, and once more against -∞). -/
def shifted (a : (⟨S100000x40, .f32⟩ : BufTy).Contents (Elt F)) : (⟨S100000x40, .f32⟩ : BufTy).Contents (Elt F) :=
  subf a (broadcastInDim S100000x40 ![0, 1] bcast_S100000x1_S100000x40_0_1
    (broadcastInDim S100000x1 ![0] bcast_S100000_S100000x1_0
      (maximumf (broadcastInDim S100000 ![] bcast_S_S100000 (constant (F := F) S_ .f32 0xFF800000#32))
        (Host.reduce FloatOps.maximumf a (constant (F := F) S_ .f32 0xFF800000#32) reducesTo_S100000x40_S100000_d1 h_S_))))

/-- Row-wise log-softmax: the shifted entry minus the logarithm of the row's sum of exponentials of the shifted entries. -/
def logSoftmax (a : (⟨S100000x40, .f32⟩ : BufTy).Contents (Elt F)) : (⟨S100000x40, .f32⟩ : BufTy).Contents (Elt F) :=
  subf (shifted a) (broadcastInDim S100000x40 ![0, 1] bcast_S100000x1_S100000x40_0_1
    (Host.log (broadcastInDim S100000x1 ![0] bcast_S100000_S100000x1_0
      (Host.reduceAdd (Host.exp (shifted a)) (constant (F := F) S_ .f32 0x00000000#32) reducesTo_S100000x40_S100000_d1 h_S_))))

/-- The first linear map, `x · W1`, and the second, `h · W2`. -/
def lin1 (x : (⟨S100000x500, .f32⟩ : BufTy).Contents (Elt F)) (w : (⟨S500x16, .f32⟩ : BufTy).Contents (Elt F)) :
    (⟨S100000x16, .f32⟩ : BufTy).Contents (Elt F) :=
  Host.dotGeneral dot_S100000x500_S500x16_S100000x16_1_0_0_1_n_n none x w
def lin2 (h : (⟨S100000x16, .f32⟩ : BufTy).Contents (Elt F)) (w : (⟨S16x40, .f32⟩ : BufTy).Contents (Elt F)) :
    (⟨S100000x40, .f32⟩ : BufTy).Contents (Elt F) :=
  Host.dotGeneral dot_S100000x16_S16x40_S100000x40_1_0_0_1_n_n none h w

/-- The hidden layer and the whole network. -/
def hidden (x : (⟨S100000x500, .f32⟩ : BufTy).Contents (Elt F)) (e : (⟨S2x3200000, .i32⟩ : BufTy).Contents (Elt F))
    (w1 : (⟨S500x16, .f32⟩ : BufTy).Contents (Elt F)) (b1 : (⟨S16, .f32⟩ : BufTy).Contents (Elt F)) :
    (⟨S100000x16, .f32⟩ : BufTy).Contents (Elt F) :=
  relu16 (agg16 (lin1 x w1) (srcF e) (dstF e) (norm (srcF e) (dstF e)) b1)
def logits (x : (⟨S100000x500, .f32⟩ : BufTy).Contents (Elt F)) (e : (⟨S2x3200000, .i32⟩ : BufTy).Contents (Elt F))
    (w1 : (⟨S500x16, .f32⟩ : BufTy).Contents (Elt F)) (b1 : (⟨S16, .f32⟩ : BufTy).Contents (Elt F))
    (w2 : (⟨S16x40, .f32⟩ : BufTy).Contents (Elt F)) (b2 : (⟨S40, .f32⟩ : BufTy).Contents (Elt F)) :
    (⟨S100000x40, .f32⟩ : BufTy).Contents (Elt F) :=
  agg40 (lin2 (hidden x e w1 b1) w2) (srcF e) (dstF e) (norm (srcF e) (dstF e)) b2
def gcn (x : (⟨S100000x500, .f32⟩ : BufTy).Contents (Elt F)) (e : (⟨S2x3200000, .i32⟩ : BufTy).Contents (Elt F))
    (w1 : (⟨S500x16, .f32⟩ : BufTy).Contents (Elt F)) (b1 : (⟨S16, .f32⟩ : BufTy).Contents (Elt F))
    (w2 : (⟨S16x40, .f32⟩ : BufTy).Contents (Elt F)) (b2 : (⟨S40, .f32⟩ : BufTy).Contents (Elt F)) :
    (⟨S100000x40, .f32⟩ : BufTy).Contents (Elt F) :=
  logSoftmax (logits x e w1 b1 w2 b2)

end Cert.Layers

end
-- ==== Proof.MatmulRows.lean ====
/-
  Matrix products entry by entry, over the extended reals. A product of an [M, K] by a [K, N] array into a zero
  accumulator — a block of rows on the matrix unit, the rounding of its operands to half precision being the identity
  on exact values — and the host's whole product both have, at (row, column), the sum over k of left (row, k) times
  right (k, column): the contracted axis of each dimension record is re-indexed by `Fin K`. Four records: the first
  layer's 4000-row block and its 100000-row whole (K = 500), the second layer's (K = 16).
-/
import proofs.«121774_j19018115187322_1_alg».proof.Proof.Gen.KernelIdeal.Skeleton
import proofs.«121774_j19018115187322_1_alg».proof.Proof.Layers
import Idealize.ShloMosaic.Lib.ValueIdx
import Idealize.ShloMosaic.PureOps.Ideal.Laws
import Idealize.ShloMosaic.Lib.Pipeline.Value

noncomputable section

namespace Cert.Rows

open Idealize.ShloMosaic Idealize.ShloMosaic.TcCoe Idealize.ShloMosaic.ValueIdx

theorem blk1_l0 (i : Cert.KernelIdeal.S4000x16.Idx) (q : Cert.KernelIdeal.dot_S4000x500_S500x16_S4000x16_1_0_0_1_n_n.contr.Idx) : (Cert.KernelIdeal.dot_S4000x500_S500x16_S4000x16_1_0_0_1_n_n.lhsIdx i q 0).val = (i 0).val := by
  unfold DotDims.lhsIdx
  rw [dif_neg (show ¬(0 : Fin Cert.KernelIdeal.S4000x500.rank) ∈ Cert.KernelIdeal.dot_S4000x500_S500x16_S4000x16_1_0_0_1_n_n.lhsBatch by decide), dif_pos (show (0 : Fin Cert.KernelIdeal.S4000x500.rank) ∈ Cert.KernelIdeal.dot_S4000x500_S500x16_S4000x16_1_0_0_1_n_n.lhsNonContracting by decide)]
  rfl
theorem blk1_l1 (i : Cert.KernelIdeal.S4000x16.Idx) (q : Cert.KernelIdeal.dot_S4000x500_S500x16_S4000x16_1_0_0_1_n_n.contr.Idx) : (Cert.KernelIdeal.dot_S4000x500_S500x16_S4000x16_1_0_0_1_n_n.lhsIdx i q 1).val = (q ⟨0, by decide⟩).val :=
  Cert.KernelIdeal.dot_S4000x500_S500x16_S4000x16_1_0_0_1_n_n.lhsIdx_val_of_single rfl i q
theorem blk1_r0 (i : Cert.KernelIdeal.S4000x16.Idx) (q : Cert.KernelIdeal.dot_S4000x500_S500x16_S4000x16_1_0_0_1_n_n.contr.Idx) : (Cert.KernelIdeal.dot_S4000x500_S500x16_S4000x16_1_0_0_1_n_n.rhsIdx i q 0).val = (q ⟨0, by decide⟩).val :=
  Cert.KernelIdeal.dot_S4000x500_S500x16_S4000x16_1_0_0_1_n_n.rhsIdx_val_of_single rfl i q
theorem blk1_r1 (i : Cert.KernelIdeal.S4000x16.Idx) (q : Cert.KernelIdeal.dot_S4000x500_S500x16_S4000x16_1_0_0_1_n_n.contr.Idx) : (Cert.KernelIdeal.dot_S4000x500_S500x16_S4000x16_1_0_0_1_n_n.rhsIdx i q 1).val = (i 1).val := by
  unfold DotDims.rhsIdx
  rw [dif_neg (show ¬(1 : Fin Cert.KernelIdeal.S500x16.rank) ∈ Cert.KernelIdeal.dot_S4000x500_S500x16_S4000x16_1_0_0_1_n_n.rhsBatch by decide), dif_pos (show (1 : Fin Cert.KernelIdeal.S500x16.rank) ∈ Cert.KernelIdeal.dot_S4000x500_S500x16_S4000x16_1_0_0_1_n_n.rhsNonContracting by decide)]
  rfl
/-- Over the one contracted axis, re-indexed by `Fin 500`: the left factor sits at (row, k), the right at (k, column). -/
theorem blk1_sum (l : Cert.KernelIdeal.S4000x500.Idx → EReal) (r : Cert.KernelIdeal.S500x16.Idx → EReal) (i : Cert.KernelIdeal.S4000x16.Idx) :
    (∑ q : Cert.KernelIdeal.dot_S4000x500_S500x16_S4000x16_1_0_0_1_n_n.contr.Idx, l (Cert.KernelIdeal.dot_S4000x500_S500x16_S4000x16_1_0_0_1_n_n.lhsIdx i q) * r (Cert.KernelIdeal.dot_S4000x500_S500x16_S4000x16_1_0_0_1_n_n.rhsIdx i q))
      = ∑ k : Fin 500, l (ix2 (i 0) k) * r (ix2 k (i 1)) := by
  rw [← Equiv.sum_comp (contrEquiv1 Cert.KernelIdeal.dot_S4000x500_S500x16_S4000x16_1_0_0_1_n_n 500 rfl rfl).symm]
  refine Finset.sum_congr rfl fun k _ => ?_
  have hk := contrEquiv1_symm_val Cert.KernelIdeal.dot_S4000x500_S500x16_S4000x16_1_0_0_1_n_n 500 rfl rfl k
  have el : Cert.KernelIdeal.dot_S4000x500_S500x16_S4000x16_1_0_0_1_n_n.lhsIdx i ((contrEquiv1 Cert.KernelIdeal.dot_S4000x500_S500x16_S4000x16_1_0_0_1_n_n 500 rfl rfl).symm k) = ix2 (i 0) k := funext fun a => Fin.ext (by
    match a with
    | ⟨0, _⟩ => exact blk1_l0 _ _
    | ⟨1, _⟩ => exact (blk1_l1 _ _).trans hk)
  have er : Cert.KernelIdeal.dot_S4000x500_S500x16_S4000x16_1_0_0_1_n_n.rhsIdx i ((contrEquiv1 Cert.KernelIdeal.dot_S4000x500_S500x16_S4000x16_1_0_0_1_n_n 500 rfl rfl).symm k) = ix2 k (i 1) := funext fun a => Fin.ext (by
    match a with
    | ⟨0, _⟩ => exact (blk1_r0 _ _).trans hk
    | ⟨1, _⟩ => exact blk1_r1 _ _)
  exact congrArg₂ (· * ·) (congrArg l el) (congrArg r er)

theorem blk2_l0 (i : Cert.KernelIdeal.S4000x40.Idx) (q : Cert.KernelIdeal.dot_S4000x16_S16x40_S4000x40_1_0_0_1_n_n.contr.Idx) : (Cert.KernelIdeal.dot_S4000x16_S16x40_S4000x40_1_0_0_1_n_n.lhsIdx i q 0).val = (i 0).val := by
  unfold DotDims.lhsIdx
  rw [dif_neg (show ¬(0 : Fin Cert.KernelIdeal.S4000x16.rank) ∈ Cert.KernelIdeal.dot_S4000x16_S16x40_S4000x40_1_0_0_1_n_n.lhsBatch by decide), dif_pos (show (0 : Fin Cert.KernelIdeal.S4000x16.rank) ∈ Cert.KernelIdeal.dot_S4000x16_S16x40_S4000x40_1_0_0_1_n_n.lhsNonContracting by decide)]
  rfl
theorem blk2_l1 (i : Cert.KernelIdeal.S4000x40.Idx) (q : Cert.KernelIdeal.dot_S4000x16_S16x40_S4000x40_1_0_0_1_n_n.contr.Idx) : (Cert.KernelIdeal.dot_S4000x16_S16x40_S4000x40_1_0_0_1_n_n.lhsIdx i q 1).val = (q ⟨0, by decide⟩).val :=
  Cert.KernelIdeal.dot_S4000x16_S16x40_S4000x40_1_0_0_1_n_n.lhsIdx_val_of_single rfl i q
theorem blk2_r0 (i : Cert.KernelIdeal.S4000x40.Idx) (q : Cert.KernelIdeal.dot_S4000x16_S16x40_S4000x40_1_0_0_1_n_n.contr.Idx) : (Cert.KernelIdeal.dot_S4000x16_S16x40_S4000x40_1_0_0_1_n_n.rhsIdx i q 0).val = (q ⟨0, by decide⟩).val :=
  Cert.KernelIdeal.dot_S4000x16_S16x40_S4000x40_1_0_0_1_n_n.rhsIdx_val_of_single rfl i q
theorem blk2_r1 (i : Cert.KernelIdeal.S4000x40.Idx) (q : Cert.KernelIdeal.dot_S4000x16_S16x40_S4000x40_1_0_0_1_n_n.contr.Idx) : (Cert.KernelIdeal.dot_S4000x16_S16x40_S4000x40_1_0_0_1_n_n.rhsIdx i q 1).val = (i 1).val := by
  unfold DotDims.rhsIdx
  rw [dif_neg (show ¬(1 : Fin Cert.KernelIdeal.S16x40.rank) ∈ Cert.KernelIdeal.dot_S4000x16_S16x40_S4000x40_1_0_0_1_n_n.rhsBatch by decide), dif_pos (show (1 : Fin Cert.KernelIdeal.S16x40.rank) ∈ Cert.KernelIdeal.dot_S4000x16_S16x40_S4000x40_1_0_0_1_n_n.rhsNonContracting by decide)]
  rfl
/-- Over the one contracted axis, re-indexed by `Fin 16`: the left factor sits at (row, k), the right at (k, column). -/
theorem blk2_sum (l : Cert.KernelIdeal.S4000x16.Idx → EReal) (r : Cert.KernelIdeal.S16x40.Idx → EReal) (i : Cert.KernelIdeal.S4000x40.Idx) :
    (∑ q : Cert.KernelIdeal.dot_S4000x16_S16x40_S4000x40_1_0_0_1_n_n.contr.Idx, l (Cert.KernelIdeal.dot_S4000x16_S16x40_S4000x40_1_0_0_1_n_n.lhsIdx i q) * r (Cert.KernelIdeal.dot_S4000x16_S16x40_S4000x40_1_0_0_1_n_n.rhsIdx i q))
      = ∑ k : Fin 16, l (ix2 (i 0) k) * r (ix2 k (i 1)) := by
  rw [← Equiv.sum_comp (contrEquiv1 Cert.KernelIdeal.dot_S4000x16_S16x40_S4000x40_1_0_0_1_n_n 16 rfl rfl).symm]
  refine Finset.sum_congr rfl fun k _ => ?_
  have hk := contrEquiv1_symm_val Cert.KernelIdeal.dot_S4000x16_S16x40_S4000x40_1_0_0_1_n_n 16 rfl rfl k
  have el : Cert.KernelIdeal.dot_S4000x16_S16x40_S4000x40_1_0_0_1_n_n.lhsIdx i ((contrEquiv1 Cert.KernelIdeal.dot_S4000x16_S16x40_S4000x40_1_0_0_1_n_n 16 rfl rfl).symm k) = ix2 (i 0) k := funext fun a => Fin.ext (by
    match a with
    | ⟨0, _⟩ => exact blk2_l0 _ _
    | ⟨1, _⟩ => exact (blk2_l1 _ _).trans hk)
  have er : Cert.KernelIdeal.dot_S4000x16_S16x40_S4000x40_1_0_0_1_n_n.rhsIdx i ((contrEquiv1 Cert.KernelIdeal.dot_S4000x16_S16x40_S4000x40_1_0_0_1_n_n 16 rfl rfl).symm k) = ix2 k (i 1) := funext fun a => Fin.ext (by
    match a with
    | ⟨0, _⟩ => exact (blk2_r0 _ _).trans hk
    | ⟨1, _⟩ => exact blk2_r1 _ _)
  exact congrArg₂ (· * ·) (congrArg l el) (congrArg r er)

theorem all1_l0 (i : Cert.ReferenceIdeal.S100000x16.Idx) (q : Cert.ReferenceIdeal.dot_S100000x500_S500x16_S100000x16_1_0_0_1_n_n.contr.Idx) : (Cert.ReferenceIdeal.dot_S100000x500_S500x16_S100000x16_1_0_0_1_n_n.lhsIdx i q 0).val = (i 0).val := by
  unfold DotDims.lhsIdx
  rw [dif_neg (show ¬(0 : Fin Cert.ReferenceIdeal.S100000x500.rank) ∈ Cert.ReferenceIdeal.dot_S100000x500_S500x16_S100000x16_1_0_0_1_n_n.lhsBatch by decide), dif_pos (show (0 : Fin Cert.ReferenceIdeal.S100000x500.rank) ∈ Cert.ReferenceIdeal.dot_S100000x500_S500x16_S100000x16_1_0_0_1_n_n.lhsNonContracting by decide)]
  rfl
theorem all1_l1 (i : Cert.ReferenceIdeal.S100000x16.Idx) (q : Cert.ReferenceIdeal.dot_S100000x500_S500x16_S100000x16_1_0_0_1_n_n.contr.Idx) : (Cert.ReferenceIdeal.dot_S100000x500_S500x16_S100000x16_1_0_0_1_n_n.lhsIdx i q 1).val = (q ⟨0, by decide⟩).val :=
  Cert.ReferenceIdeal.dot_S100000x500_S500x16_S100000x16_1_0_0_1_n_n.lhsIdx_val_of_single rfl i q
theorem all1_r0 (i : Cert.ReferenceIdeal.S100000x16.Idx) (q : Cert.ReferenceIdeal.dot_S100000x500_S500x16_S100000x16_1_0_0_1_n_n.contr.Idx) : (Cert.ReferenceIdeal.dot_S100000x500_S500x16_S100000x16_1_0_0_1_n_n.rhsIdx i q 0).val = (q ⟨0, by decide⟩).val :=
  Cert.ReferenceIdeal.dot_S100000x500_S500x16_S100000x16_1_0_0_1_n_n.rhsIdx_val_of_single rfl i q
theorem all1_r1 (i : Cert.ReferenceIdeal.S100000x16.Idx) (q : Cert.ReferenceIdeal.dot_S100000x500_S500x16_S100000x16_1_0_0_1_n_n.contr.Idx) : (Cert.ReferenceIdeal.dot_S100000x500_S500x16_S100000x16_1_0_0_1_n_n.rhsIdx i q 1).val = (i 1).val := by
  unfold DotDims.rhsIdx
  rw [dif_neg (show ¬(1 : Fin Cert.ReferenceIdeal.S500x16.rank) ∈ Cert.ReferenceIdeal.dot_S100000x500_S500x16_S100000x16_1_0_0_1_n_n.rhsBatch by decide), dif_pos (show (1 : Fin Cert.ReferenceIdeal.S500x16.rank) ∈ Cert.ReferenceIdeal.dot_S100000x500_S500x16_S100000x16_1_0_0_1_n_n.rhsNonContracting by decide)]
  rfl
/-- Over the one contracted axis, re-indexed by `Fin 500`: the left factor sits at (row, k), the right at (k, column). -/
theorem all1_sum (l : Cert.ReferenceIdeal.S100000x500.Idx → EReal) (r : Cert.ReferenceIdeal.S500x16.Idx → EReal) (i : Cert.ReferenceIdeal.S100000x16.Idx) :
    (∑ q : Cert.ReferenceIdeal.dot_S100000x500_S500x16_S100000x16_1_0_0_1_n_n.contr.Idx, l (Cert.ReferenceIdeal.dot_S100000x500_S500x16_S100000x16_1_0_0_1_n_n.lhsIdx i q) * r (Cert.ReferenceIdeal.dot_S100000x500_S500x16_S100000x16_1_0_0_1_n_n.rhsIdx i q))
      = ∑ k : Fin 500, l (ix2 (i 0) k) * r (ix2 k (i 1)) := by
  rw [← Equiv.sum_comp (contrEquiv1 Cert.ReferenceIdeal.dot_S100000x500_S500x16_S100000x16_1_0_0_1_n_n 500 rfl rfl).symm]
  refine Finset.sum_congr rfl fun k _ => ?_
  have hk := contrEquiv1_symm_val Cert.ReferenceIdeal.dot_S100000x500_S500x16_S100000x16_1_0_0_1_n_n 500 rfl rfl k
  have el : Cert.ReferenceIdeal.dot_S100000x500_S500x16_S100000x16_1_0_0_1_n_n.lhsIdx i ((contrEquiv1 Cert.ReferenceIdeal.dot_S100000x500_S500x16_S100000x16_1_0_0_1_n_n 500 rfl rfl).symm k) = ix2 (i 0) k := funext fun a => Fin.ext (by
    match a with
    | ⟨0, _⟩ => exact all1_l0 _ _
    | ⟨1, _⟩ => exact (all1_l1 _ _).trans hk)
  have er : Cert.ReferenceIdeal.dot_S100000x500_S500x16_S100000x16_1_0_0_1_n_n.rhsIdx i ((contrEquiv1 Cert.ReferenceIdeal.dot_S100000x500_S500x16_S100000x16_1_0_0_1_n_n 500 rfl rfl).symm k) = ix2 k (i 1) := funext fun a => Fin.ext (by
    match a with
    | ⟨0, _⟩ => exact (all1_r0 _ _).trans hk
    | ⟨1, _⟩ => exact all1_r1 _ _)
  exact congrArg₂ (· * ·) (congrArg l el) (congrArg r er)

theorem all2_l0 (i : Cert.ReferenceIdeal.S100000x40.Idx) (q : Cert.ReferenceIdeal.dot_S100000x16_S16x40_S100000x40_1_0_0_1_n_n.contr.Idx) : (Cert.ReferenceIdeal.dot_S100000x16_S16x40_S100000x40_1_0_0_1_n_n.lhsIdx i q 0).val = (i 0).val := by
  unfold DotDims.lhsIdx
  rw [dif_neg (show ¬(0 : Fin Cert.ReferenceIdeal.S100000x16.rank) ∈ Cert.ReferenceIdeal.dot_S100000x16_S16x40_S100000x40_1_0_0_1_n_n.lhsBatch by decide), dif_pos (show (0 : Fin Cert.ReferenceIdeal.S100000x16.rank) ∈ Cert.ReferenceIdeal.dot_S100000x16_S16x40_S100000x40_1_0_0_1_n_n.lhsNonContracting by decide)]
  rfl
theorem all2_l1 (i : Cert.ReferenceIdeal.S100000x40.Idx) (q : Cert.ReferenceIdeal.dot_S100000x16_S16x40_S100000x40_1_0_0_1_n_n.contr.Idx) : (Cert.ReferenceIdeal.dot_S100000x16_S16x40_S100000x40_1_0_0_1_n_n.lhsIdx i q 1).val = (q ⟨0, by decide⟩).val :=
  Cert.ReferenceIdeal.dot_S100000x16_S16x40_S100000x40_1_0_0_1_n_n.lhsIdx_val_of_single rfl i q
theorem all2_r0 (i : Cert.ReferenceIdeal.S100000x40.Idx) (q : Cert.ReferenceIdeal.dot_S100000x16_S16x40_S100000x40_1_0_0_1_n_n.contr.Idx) : (Cert.ReferenceIdeal.dot_S100000x16_S16x40_S100000x40_1_0_0_1_n_n.rhsIdx i q 0).val = (q ⟨0, by decide⟩).val :=
  Cert.ReferenceIdeal.dot_S100000x16_S16x40_S100000x40_1_0_0_1_n_n.rhsIdx_val_of_single rfl i q
theorem all2_r1 (i : Cert.ReferenceIdeal.S100000x40.Idx) (q : Cert.ReferenceIdeal.dot_S100000x16_S16x40_S100000x40_1_0_0_1_n_n.contr.Idx) : (Cert.ReferenceIdeal.dot_S100000x16_S16x40_S100000x40_1_0_0_1_n_n.rhsIdx i q 1).val = (i 1).val := by
  unfold DotDims.rhsIdx
  rw [dif_neg (show ¬(1 : Fin Cert.ReferenceIdeal.S16x40.rank) ∈ Cert.ReferenceIdeal.dot_S100000x16_S16x40_S100000x40_1_0_0_1_n_n.rhsBatch by decide), dif_pos (show (1 : Fin Cert.ReferenceIdeal.S16x40.rank) ∈ Cert.ReferenceIdeal.dot_S100000x16_S16x40_S100000x40_1_0_0_1_n_n.rhsNonContracting by decide)]
  rfl
/-- Over the one contracted axis, re-indexed by `Fin 16`: the left factor sits at (row, k), the right at (k, column). -/
theorem all2_sum (l : Cert.ReferenceIdeal.S100000x16.Idx → EReal) (r : Cert.ReferenceIdeal.S16x40.Idx → EReal) (i : Cert.ReferenceIdeal.S100000x40.Idx) :
    (∑ q : Cert.ReferenceIdeal.dot_S100000x16_S16x40_S100000x40_1_0_0_1_n_n.contr.Idx, l (Cert.ReferenceIdeal.dot_S100000x16_S16x40_S100000x40_1_0_0_1_n_n.lhsIdx i q) * r (Cert.ReferenceIdeal.dot_S100000x16_S16x40_S100000x40_1_0_0_1_n_n.rhsIdx i q))
      = ∑ k : Fin 16, l (ix2 (i 0) k) * r (ix2 k (i 1)) := by
  rw [← Equiv.sum_comp (contrEquiv1 Cert.ReferenceIdeal.dot_S100000x16_S16x40_S100000x40_1_0_0_1_n_n 16 rfl rfl).symm]
  refine Finset.sum_congr rfl fun k _ => ?_
  have hk := contrEquiv1_symm_val Cert.ReferenceIdeal.dot_S100000x16_S16x40_S100000x40_1_0_0_1_n_n 16 rfl rfl k
  have el : Cert.ReferenceIdeal.dot_S100000x16_S16x40_S100000x40_1_0_0_1_n_n.lhsIdx i ((contrEquiv1 Cert.ReferenceIdeal.dot_S100000x16_S16x40_S100000x40_1_0_0_1_n_n 16 rfl rfl).symm k) = ix2 (i 0) k := funext fun a => Fin.ext (by
    match a with
    | ⟨0, _⟩ => exact all2_l0 _ _
    | ⟨1, _⟩ => exact (all2_l1 _ _).trans hk)
  have er : Cert.ReferenceIdeal.dot_S100000x16_S16x40_S100000x40_1_0_0_1_n_n.rhsIdx i ((contrEquiv1 Cert.ReferenceIdeal.dot_S100000x16_S16x40_S100000x40_1_0_0_1_n_n 16 rfl rfl).symm k) = ix2 k (i 1) := funext fun a => Fin.ext (by
    match a with
    | ⟨0, _⟩ => exact (all2_r0 _ _).trans hk
    | ⟨1, _⟩ => exact all2_r1 _ _)
  exact congrArg₂ (· * ·) (congrArg l el) (congrArg r er)

/-- A 4000-row block of the first layer's product: entry (p, q) is the sum over the 500 features. -/
theorem lin1_block (x0 : Vec Ideal Cert.KernelIdeal.S4000x500 .f32) (x1 : Vec Ideal Cert.KernelIdeal.S500x16 .f32) (j : Cert.KernelIdeal.S4000x16.Idx) :
    Cert.KernelIdeal.Gen.k0_pay1 (F := Ideal) x0 x1 j = ∑ k : Fin 500, x0 (ix2 (j 0) k) * x1 (ix2 k (j 1)) := by
  unfold Cert.KernelIdeal.Gen.k0_pay1
  refine (Ideal.matmul_constant_zero_apply Cert.KernelIdeal.dot_S4000x500_S500x16_S4000x16_1_0_0_1_n_n none _ _ j).trans ?_
  exact blk1_sum x0 x1 j

/-- A 4000-row block of the second layer's product: entry (p, q) is the sum over the 16 hidden features. -/
theorem lin2_block (x0 : Vec Ideal Cert.KernelIdeal.S4000x16 .f32) (x1 : Vec Ideal Cert.KernelIdeal.S16x40 .f32) (j : Cert.KernelIdeal.S4000x40.Idx) :
    Cert.KernelIdeal.Gen.k1_pay1 (F := Ideal) x0 x1 j = ∑ k : Fin 16, x0 (ix2 (j 0) k) * x1 (ix2 k (j 1)) := by
  unfold Cert.KernelIdeal.Gen.k1_pay1
  rw [shapeCast_self]
  refine (Ideal.matmul_constant_zero_apply Cert.KernelIdeal.dot_S4000x16_S16x40_S4000x40_1_0_0_1_n_n none _ _ j).trans ?_
  exact blk2_sum x0 x1 j

/-- The host's first product, whole: the same sum at every (node, column). -/
theorem lin1_apply (x : Cert.ReferenceIdeal.S100000x500.Idx → EReal) (w : Cert.ReferenceIdeal.S500x16.Idx → EReal) (i : Cert.ReferenceIdeal.S100000x16.Idx) :
    Cert.Layers.lin1 (F := Ideal) x w i = ∑ k : Fin 500, x (ix2 (i 0) k) * w (ix2 k (i 1)) := by
  unfold Cert.Layers.lin1
  simp only [Host.dotGeneral]
  rw [Ideal.dotGeneral_apply]
  exact all1_sum x w i

/-- The host's second product, whole. -/
theorem lin2_apply (x : Cert.ReferenceIdeal.S100000x16.Idx → EReal) (w : Cert.ReferenceIdeal.S16x40.Idx → EReal) (i : Cert.ReferenceIdeal.S100000x40.Idx) :
    Cert.Layers.lin2 (F := Ideal) x w i = ∑ k : Fin 16, x (ix2 (i 0) k) * w (ix2 k (i 1)) := by
  unfold Cert.Layers.lin2
  simp only [Host.dotGeneral]
  rw [Ideal.dotGeneral_apply]
  exact all2_sum x w i

end Cert.Rows

end
-- ==== Proof.MatmulBlocks.lean ====
/-
  The two linear layers on the matrix unit, block by block, are the whole products. Each runs over 25 grid points;
  point `t` fetches rows `4000 t … 4000 t + 3999` of the left array and the whole right array, multiplies them into a
  zero accumulator, and writes the 4000 × N result back as row block `t` of the output. Entry by entry the block's
  product is the whole product's (the same sum over the contracted axis, at row `4000 t + p`), and the 25 blocks tile
  the 100000 rows, so the output array after the region is the whole product of the arrays the region was entered
  with: `x · W1` for the first layer (contracting 500 features), `h · W2` for the second (16 hidden features).
-/
import proofs.«121774_j19018115187322_1_alg».proof.Proof.Gen.KernelIdeal.Frame
import proofs.«121774_j19018115187322_1_alg».proof.Proof.MatmulRows

set_option maxRecDepth 16384

noncomputable section

namespace Cert.KernelIdeal.Whole

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-- The zero offsets of a whole-buffer load or store. -/
theorem hz : (![0, 0] : Fin 2 → Nat) = fun _ => 0 := funext fun a => by fin_cases a <;> rfl

-- the buffer contents when a region is entered
variable (V : (c : Dev nD) → (b : Ref sig .tc) → Buf (Elt Ideal) ((c : Thread nD τ).loc b))

/-! ## Region 0: the first layer's product, `x · W1` -/

/-- The printed index maps over the 25 grid points: the left operand's row block moves with the output's, its
    column block and both of the right operand's are 0, and so is the output's column block. -/
theorem idx0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 24 :=
  (by decide +kernel : ∀ t : Fin grid0.N, _)

/-- Every row block is some point's. -/
theorem onto0 : ∀ q0 : Fin 25, ∃ t : Fin cfg0.N, win0_2.index t = ![q0.val, 0] :=
  (by decide +kernel : ∀ q0 : Fin 25, ∃ t : Fin grid0.N, win0_2.index t = ![q0.val, 0])

/-- What point `t` writes back is block `t` of the whole product of the arrays as the region finds them: entry
    (p, q) of the block's product sums over k the left block at (p, k) — row `t · 4000 + p` of the whole left array —
    times the right array at (k, q). -/
theorem flushed0 (c : Dev nD) (t : Fin cfg0.N) :
    (dat0 V c).flushed 2 t
      = ((cfg0.win 2).blk t).view.read (Elt Ideal) (Cert.Layers.lin1 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S4000x500) hz, View.ld_unit_zero (S := S500x16) hz]
  obtain ⟨e0, e1, e2, e3, e4, e5⟩ := idx0 t
  funext j
  show k0_pay1 (iblk0 V c 0 t) (iblk0 V c 1 t) j
    = Cert.Layers.lin1 (F := Ideal) (V c main_arg0) (V c main_arg2) (((cfg0.win 2).blk t).view.emb j)
  rw [Cert.Rows.lin1_apply]
  refine (Cert.Rows.lin1_block (iblk0 V c 0 t) (iblk0 V c 1 t) j).trans ?_
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 500 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 500 + 1 * k.val = k.val; omega
    | ⟨1, _⟩ => show win0_1.index t (1 : Fin 2) * 16 + 1 * (j 1).val = win0_2.index t (1 : Fin 2) * 16 + 1 * (j 1).val; omega
  refine congrArg₂ (· * ·) ?_ ?_
  · show V c main_arg0 (((cfg0.win 0).blk t).view.emb (ix2 (j 0) k)) = V c main_arg0 (ix2 ((((cfg0.win 2).blk t).view.emb j) 0) k)
    exact congrArg (V c main_arg0) h0
  · show V c main_arg2 (((cfg0.win 1).blk t).view.emb (ix2 k (j 1))) = V c main_arg2 (ix2 k ((((cfg0.win 2).blk t).view.emb j) 1))
    exact congrArg (V c main_arg2) h1

/-- An index of the output array is in point `t`'s block iff each coordinate is in the block's range on its axis. -/
theorem mem_blk0 (t : Fin cfg0.N) (i : S100000x16.Idx) :
    i ∈ ((cfg0.win 2).blk t).view.set ↔ ∀ a : Fin 2, win0_2.index t a * S4000x16.size a ≤ (i a).val ∧ (i a).val < win0_2.index t a * S4000x16.size a + S4000x16.size a := by
  show i ∈ ((View.whole main_v30).slice (win0_2.rect t)).set ↔ _
  rw [View.set_slice_whole, Rect.mem_set_unit]
  exact Iff.rfl

/-- The 25 row blocks tile the 100000 rows: row `r` is in the block of point `r / 4000`. -/
theorem cover0 (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := onto0 ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 16 ≤ (i 1).val ∧ (i 1).val < win0_2.index t (1 : Fin 2) * 16 + 16; omega

/-- After the region its output array is the whole product of the two arrays it was entered with. -/
theorem array0 (c : Dev nD) :
    (dat0 V c).arrAt 2 cfg0.N = Cert.Layers.lin1 (F := Ideal) (V c main_arg0) (V c main_arg2) :=
  (dat0 V c).arrAt_eq_of_cover 2 _ (fun t _ => flushed0 V c t) cover0

/-! ## Region 1: the second layer's product, `h · W2` -/

/-- The printed index maps over the 25 grid points: the left operand's row block moves with the output's, its
    column block and both of the right operand's are 0, and so is the output's column block. -/
theorem idx1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 24 :=
  (by decide +kernel : ∀ t : Fin grid1.N, _)

/-- Every row block is some point's. -/
theorem onto1 : ∀ q0 : Fin 25, ∃ t : Fin cfg1.N, win1_2.index t = ![q0.val, 0] :=
  (by decide +kernel : ∀ q0 : Fin 25, ∃ t : Fin grid1.N, win1_2.index t = ![q0.val, 0])

/-- What point `t` writes back is block `t` of the whole product of the arrays as the region finds them: entry
    (p, q) of the block's product sums over k the left block at (p, k) — row `t · 4000 + p` of the whole left array —
    times the right array at (k, q). -/
theorem flushed1 (c : Dev nD) (t : Fin cfg1.N) :
    (dat1 V c).flushed 2 t
      = ((cfg1.win 2).blk t).view.read (Elt Ideal) (Cert.Layers.lin2 (F := Ideal) (V c main_v47) (V c main_arg4)) := by
  show (cfg1.win 2).cut (grid1.coords t) ((dat1 V c).after 2 t) = _
  rw [after1_2]
  unfold out1_2
  rw [View.canon_unit_zero hz]
  simp only [View.ld_unit_zero (S := S4000x16) hz, View.ld_unit_zero (S := S16x40) hz]
  obtain ⟨e0, e1, e2, e3, e4, e5⟩ := idx1 t
  funext j
  show k1_pay1 (iblk1 V c 0 t) (iblk1 V c 1 t) j
    = Cert.Layers.lin2 (F := Ideal) (V c main_v47) (V c main_arg4) (((cfg1.win 2).blk t).view.emb j)
  rw [Cert.Rows.lin2_apply]
  refine (Cert.Rows.lin2_block (iblk1 V c 0 t) (iblk1 V c 1 t) j).trans ?_
  refine Finset.sum_congr rfl fun k _ => ?_
  have h0 : ((cfg1.win 0).blk t).view.emb (ix2 (j 0) k) = ix2 ((((cfg1.win 2).blk t).view.emb j) 0) k := by
    funext a; apply Fin.ext
    match a with
    | ⟨0, _⟩ => show win1_0.index t (0 : Fin 2) * 4000 + 1 * (j 0).val = win1_2.index t (0 : Fin 2) * 4000 + 1 * (j 0).val; omega
    | ⟨1, _⟩ => show win1_0.index t (1 : Fin 2) * 16 + 1 * k.val = k.val; omega
  have h1 : ((cfg1.win 1).blk t).view.emb (ix2 k (j 1)) = ix2 k ((((cfg1.win 2).blk t).view.emb j) 1) := by
    funext a; apply Fin.ext
    match a with
    | ⟨0, _⟩ => show win1_1.index t (0 : Fin 2) * 16 + 1 * k.val = k.val; omega
    | ⟨1, _⟩ => show win1_1.index t (1 : Fin 2) * 40 + 1 * (j 1).val = win1_2.index t (1 : Fin 2) * 40 + 1 * (j 1).val; omega
  refine congrArg₂ (· * ·) ?_ ?_
  · show V c main_v47 (((cfg1.win 0).blk t).view.emb (ix2 (j 0) k)) = V c main_v47 (ix2 ((((cfg1.win 2).blk t).view.emb j) 0) k)
    exact congrArg (V c main_v47) h0
  · show V c main_arg4 (((cfg1.win 1).blk t).view.emb (ix2 k (j 1))) = V c main_arg4 (ix2 k ((((cfg1.win 2).blk t).view.emb j) 1))
    exact congrArg (V c main_arg4) h1

/-- An index of the output array is in point `t`'s block iff each coordinate is in the block's range on its axis. -/
theorem mem_blk1 (t : Fin cfg1.N) (i : S100000x40.Idx) :
    i ∈ ((cfg1.win 2).blk t).view.set ↔ ∀ a : Fin 2, win1_2.index t a * S4000x40.size a ≤ (i a).val ∧ (i a).val < win1_2.index t a * S4000x40.size a + S4000x40.size a := by
  show i ∈ ((View.whole main_v48).slice (win1_2.rect t)).set ↔ _
  rw [View.set_slice_whole, Rect.mem_set_unit]
  exact Iff.rfl

/-- The 25 row blocks tile the 100000 rows: row `r` is in the block of point `r / 4000`. -/
theorem cover1 (i : S100000x40.Idx) : ∃ t : Fin cfg1.N, (cfg1.win 2).flush t = true ∧ i ∈ ((cfg1.win 2).blk t).view.set := by
  have hi0 : (i 0).val < 100000 := (i 0).isLt
  have hi1 : (i 1).val < 40 := (i 1).isLt
  obtain ⟨t, ht⟩ := onto1 ⟨(i 0).val / 4000, by omega⟩
  have q0 : win1_2.index t (0 : Fin 2) = (i 0).val / 4000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 40 ≤ (i 1).val ∧ (i 1).val < win1_2.index t (1 : Fin 2) * 40 + 40; omega

/-- After the region its output array is the whole product of the two arrays it was entered with. -/
theorem array1 (c : Dev nD) :
    (dat1 V c).arrAt 2 cfg1.N = Cert.Layers.lin2 (F := Ideal) (V c main_v47) (V c main_arg4) :=
  (dat1 V c).arrAt_eq_of_cover 2 _ (fun t _ => flushed1 V c t) cover1

end Cert.KernelIdeal.Whole

end
-- ==== Proof.LayersK.lean ====
/-
  The host-side layers of the graph convolution once more, over the kernel program's own shapes and dimension records
  (the two programs print the same shapes and records under their own names): the extended edge list, the degrees, the
  edge weights, one aggregation per feature width and the clamp — and that each is the function of the same name over
  the reference program's, since the shapes and records are equal field by field.
-/
import proofs.«121774_j19018115187322_1_alg».proof.Proof.Gen.KernelIdeal
import proofs.«121774_j19018115187322_1_alg».proof.Proof.Layers
import Idealize.ShloMosaic.PureOps.Ideal

noncomputable section

namespace Cert.LayersK

open Cert.KernelIdeal Cert.KernelIdeal.Gen Idealize.ShloMosaic Idealize.ShloMosaic.TcCoe

variable {F : FTy → Type} [FloatOps F]

/-- Row 0 of the edge list (the sources as given) and row 1 (the destinations as given). -/
def row0 (e : (⟨S2x3200000, .i32⟩ : BufTy).Contents (Elt F)) : (⟨S3200000, .i32⟩ : BufTy).Contents (Elt F) :=
  shapeCast _ (extractStridedSlice S1x3200000 ![0, 0] e slices_S2x3200000_S1x3200000_0_0) shapeCasts_S1x3200000_S3200000
def row1 (e : (⟨S2x3200000, .i32⟩ : BufTy).Contents (Elt F)) : (⟨S3200000, .i32⟩ : BufTy).Contents (Elt F) :=
  shapeCast _ (extractStridedSlice S1x3200000 ![1, 0] e slices_S2x3200000_S1x3200000_1_0) shapeCasts_S1x3200000_S3200000

/-- A list of 3,200,000 node ids extended by every node once (the self-loops). -/
def ends (r : (⟨S3200000, .i32⟩ : BufTy).Contents (Elt F)) : (⟨S3300000, .i32⟩ : BufTy).Contents (Elt F) :=
  concatenate S3300000 0 [⟨S3200000, r⟩, ⟨S100000, (iotaInDim S100000 32 0)⟩] concatenates_S3200000_S100000_S3300000_d0

/-- The sources and the destinations of the extended edge list. -/
def srcF (e : (⟨S2x3200000, .i32⟩ : BufTy).Contents (Elt F)) : (⟨S3300000, .i32⟩ : BufTy).Contents (Elt F) := ends (row0 e)
def dstF (e : (⟨S2x3200000, .i32⟩ : BufTy).Contents (Elt F)) : (⟨S3300000, .i32⟩ : BufTy).Contents (Elt F) := ends (row1 e)

/-- A list of node ids as a column of row indices. -/
def col (v : (⟨S3300000, .i32⟩ : BufTy).Contents (Elt F)) : (⟨S3300000x1, .i32⟩ : BufTy).Contents (Elt F) :=
  broadcastInDim S3300000x1 ![0] bcast_S3300000_S3300000x1_0 v

/-- The same with a negative id counted from the end (id + 100000). -/
def wrap (v : (⟨S3300000, .i32⟩ : BufTy).Contents (Elt F)) : (⟨S3300000x1, .i32⟩ : BufTy).Contents (Elt F) :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- The number of extended edges ending in each node, from the destinations `d`. -/
def deg (d : (⟨S3300000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant (F := F) S_ .f32 0x00000000#32))
    (col d)
    (broadcastInDim S3300000 ![] bcast_S_S3300000 (constant (F := F) S_ .f32 0x3F800000#32))

/-- Its inverse square root where positive, zero elsewhere. -/
def dis (d : (⟨S3300000, .i32⟩ : BufTy).Contents (Elt F)) : (⟨S100000, .f32⟩ : BufTy).Contents (Elt F) :=
  select (cmpf .ogt (deg d) (broadcastInDim S100000 ![] bcast_S_S100000 (constant (F := F) S_ .f32 0x00000000#32)))
    (Host.rsqrt (deg d))
    (broadcastInDim S100000 ![] bcast_S_S100000 (id (constant (F := F) S_ .f32 0x00000000#32)))

/-- The weight of each extended edge: `dis` at its source times `dis` at its destination. -/
def norm (s d : (⟨S3300000, .i32⟩ : BufTy).Contents (Elt F)) : (⟨S3300000, .f32⟩ : BufTy).Contents (Elt F) :=
  mulf (Host.gather gather_S100000_S3300000x1_S3300000_n_0_n_n_0_1_1 (dis d) (wrap s))
    (Host.gather gather_S100000_S3300000x1_S3300000_n_0_n_n_0_1_1 (dis d) (wrap d))

/-- One aggregation at feature width 16: rows of `h` sent along the edges, scaled, summed at the destinations, plus `b`. -/
def agg16 (h : (⟨S100000x16, .f32⟩ : BufTy).Contents (Elt F)) (src dst : (⟨S3300000, .i32⟩ : BufTy).Contents (Elt F))
    (w : (⟨S3300000, .f32⟩ : BufTy).Contents (Elt F)) (b : (⟨S16, .f32⟩ : BufTy).Contents (Elt F)) :
    (⟨S100000x16, .f32⟩ : BufTy).Contents (Elt F) :=
  addf
    (Host.scatterAdd scatter_S100000x16_S3300000x1_S3300000x16_1_0_0_1
      (broadcastInDim S100000x16 ![] bcast_S_S100000x16 (constant (F := F) S_ .f32 0x00000000#32))
      (col dst)
      (mulf (Host.gather gather_S100000x16_S3300000x1_S3300000x16_1_0_n_n_0_1_116 h (wrap src))
        (broadcastInDim S3300000x16 ![0, 1] bcast_S3300000x1_S3300000x16_0_1
          (broadcastInDim S3300000x1 ![0] bcast_S3300000_S3300000x1_0 w))))
    (broadcastInDim S100000x16 ![0, 1] bcast_S1x16_S100000x16_0_1 (broadcastInDim S1x16 ![1] bcast_S16_S1x16_1 b))

/-- Clamped below at zero. -/
def relu16 (a : (⟨S100000x16, .f32⟩ : BufTy).Contents (Elt F)) : (⟨S100000x16, .f32⟩ : BufTy).Contents (Elt F) :=
  maximumf a (broadcastInDim S100000x16 ![] bcast_S_S100000x16 (constant (F := F) S_ .f32 0x00000000#32))

/-- One aggregation at feature width 40. -/
def agg40 (h : (⟨S100000x40, .f32⟩ : BufTy).Contents (Elt F)) (src dst : (⟨S3300000, .i32⟩ : BufTy).Contents (Elt F))
    (w : (⟨S3300000, .f32⟩ : BufTy).Contents (Elt F)) (b : (⟨S40, .f32⟩ : BufTy).Contents (Elt F)) :
    (⟨S100000x40, .f32⟩ : BufTy).Contents (Elt F) :=
  addf
    (Host.scatterAdd scatter_S100000x40_S3300000x1_S3300000x40_1_0_0_1
      (broadcastInDim S100000x40 ![] bcast_S_S100000x40 (constant (F := F) S_ .f32 0x00000000#32))
      (col dst)
      (mulf (Host.gather gather_S100000x40_S3300000x1_S3300000x40_1_0_n_n_0_1_140 h (wrap src))
        (broadcastInDim S3300000x40 ![0, 1] bcast_S3300000x1_S3300000x40_0_1
          (broadcastInDim S3300000x1 ![0] bcast_S3300000_S3300000x1_0 w))))
    (broadcastInDim S100000x40 ![0, 1] bcast_S1x40_S100000x40_0_1 (broadcastInDim S1x40 ![1] bcast_S40_S1x40_1 b))

/-! ## Each is the shared function of the same name -/

theorem srcF_eq (e : (⟨S2x3200000, .i32⟩ : BufTy).Contents (Elt F)) : srcF e = Cert.Layers.srcF e := rfl
theorem dstF_eq (e : (⟨S2x3200000, .i32⟩ : BufTy).Contents (Elt F)) : dstF e = Cert.Layers.dstF e := rfl
theorem col_eq (v : (⟨S3300000, .i32⟩ : BufTy).Contents (Elt F)) : col v = Cert.Layers.col v := rfl
theorem wrap_eq (v : (⟨S3300000, .i32⟩ : BufTy).Contents (Elt F)) : wrap v = Cert.Layers.wrap v := rfl
theorem deg_eq (d : (⟨S3300000, .i32⟩ : BufTy).Contents (Elt F)) : deg d = Cert.Layers.deg d := by
  unfold deg Cert.Layers.deg; rw [col_eq]; rfl
theorem dis_eq (d : (⟨S3300000, .i32⟩ : BufTy).Contents (Elt F)) : dis d = Cert.Layers.dis d := by
  unfold dis Cert.Layers.dis; rw [deg_eq]
theorem norm_eq (s d : (⟨S3300000, .i32⟩ : BufTy).Contents (Elt F)) : norm s d = Cert.Layers.norm s d := by
  unfold norm Cert.Layers.norm; rw [dis_eq, wrap_eq, wrap_eq]; rfl
theorem agg16_eq (h : (⟨S100000x16, .f32⟩ : BufTy).Contents (Elt F)) (s d : (⟨S3300000, .i32⟩ : BufTy).Contents (Elt F))
    (w : (⟨S3300000, .f32⟩ : BufTy).Contents (Elt F)) (b : (⟨S16, .f32⟩ : BufTy).Contents (Elt F)) :
    agg16 h s d w b = Cert.Layers.agg16 h s d w b := by
  unfold agg16 Cert.Layers.agg16; rw [col_eq, wrap_eq]; rfl
theorem relu16_eq (a : (⟨S100000x16, .f32⟩ : BufTy).Contents (Elt F)) : relu16 a = Cert.Layers.relu16 a := rfl
theorem agg40_eq (h : (⟨S100000x40, .f32⟩ : BufTy).Contents (Elt F)) (s d : (⟨S3300000, .i32⟩ : BufTy).Contents (Elt F))
    (w : (⟨S3300000, .f32⟩ : BufTy).Contents (Elt F)) (b : (⟨S40, .f32⟩ : BufTy).Contents (Elt F)) :
    agg40 h s d w b = Cert.Layers.agg40 h s d w b := by
  unfold agg40 Cert.Layers.agg40; rw [col_eq, wrap_eq]; rfl

end Cert.LayersK

end
-- ==== Proof.KernelStretches.lean ====
/-
  The kernel's stretches of host operations, each read over arbitrary buffer contents `V`: what it leaves in the buffers
  later segments read, as a layer of the network of `V`'s buffers, and which buffers it leaves alone. The first stretch
  builds the extended edge list from the two rows of the edge array, counts the degrees, and takes their inverse square
  roots and the test "positive"; three operations select between them and zero; the third stretch gathers along both
  ends of every edge and multiplies (the edge weights). After the first region: one aggregation at width 16, then the
  clamp at zero. After the second: one aggregation at width 40.
-/
import proofs.«121774_j19018115187322_1_alg».proof.Proof.Gen.KernelIdeal.Launch
import proofs.«121774_j19018115187322_1_alg».proof.Proof.LayersK
import Idealize.ShloMosaic.Lib.StableHlo.Run

set_option maxRecDepth 65536
set_option maxHeartbeats 4000000

noncomputable section

namespace Cert.KernelIdeal.Stretch

open Cert.KernelIdeal Cert.KernelIdeal.Gen
open Idealize.ShloMosaic Idealize.ShloMosaic.TcCoe Idealize.SL.Sem Idealize.ShloMosaic.StableHlo
open Cert.LayersK

variable {F : FTy → Type} [FloatOps F]

/-! ## The first stretch: the edge lists, the degrees' inverse square roots, the test -/

theorem s0_src (V : Valuation τ sig (Elt F)) : after hostOps0 V (Proc.devRef .tc main_v5) = srcF (V (Proc.devRef .tc main_arg1)) := by
  after_results_simp
  rfl
theorem s0_dst (V : Valuation τ sig (Elt F)) : after hostOps0 V (Proc.devRef .tc main_v6) = dstF (V (Proc.devRef .tc main_arg1)) := by
  after_results_simp
  rfl
theorem s0_pos (V : Valuation τ sig (Elt F)) : after hostOps0 V (Proc.devRef .tc main_v12)
    = cmpf .ogt (deg (dstF (V (Proc.devRef .tc main_arg1)))) (broadcastInDim S100000 ![] bcast_S_S100000 (constant (F := F) S_ .f32 0x00000000#32)) := by
  after_results_simp
  rfl
theorem s0_rsq (V : Valuation τ sig (Elt F)) : after hostOps0 V (Proc.devRef .tc main_v13) = Host.rsqrt (deg (dstF (V (Proc.devRef .tc main_arg1)))) := by
  after_results_simp
  rfl
theorem s0_zero (V : Valuation τ sig (Elt F)) : after hostOps0 V (Proc.devRef .tc main_cst_2) = constant (F := F) S_ .f32 0x00000000#32 := by
  after_results_simp
theorem s0_keep_arg0 (V : Valuation τ sig (Elt F)) : after hostOps0 V (Proc.devRef .tc main_arg0) = V (Proc.devRef .tc main_arg0) := by
  after_results_simp
theorem s0_keep_arg2 (V : Valuation τ sig (Elt F)) : after hostOps0 V (Proc.devRef .tc main_arg2) = V (Proc.devRef .tc main_arg2) := by
  after_results_simp
theorem s0_keep_arg3 (V : Valuation τ sig (Elt F)) : after hostOps0 V (Proc.devRef .tc main_arg3) = V (Proc.devRef .tc main_arg3) := by
  after_results_simp
theorem s0_keep_arg4 (V : Valuation τ sig (Elt F)) : after hostOps0 V (Proc.devRef .tc main_arg4) = V (Proc.devRef .tc main_arg4) := by
  after_results_simp
theorem s0_keep_arg5 (V : Valuation τ sig (Elt F)) : after hostOps0 V (Proc.devRef .tc main_arg5) = V (Proc.devRef .tc main_arg5) := by
  after_results_simp

/-! ## The selection: zero where the degree is not positive -/

theorem s1_dis (V : Valuation τ sig (Elt F)) : after hostOps0_1 V (Proc.devRef .tc main_v14)
    = select (V (Proc.devRef .tc main_v12)) (V (Proc.devRef .tc main_v13)) (broadcastInDim S100000 ![] bcast_S_S100000 (id (V (Proc.devRef .tc main_cst_2)))) := by
  after_results_simp
  rfl
theorem s1_keep_v5 (V : Valuation τ sig (Elt F)) : after hostOps0_1 V (Proc.devRef .tc main_v5) = V (Proc.devRef .tc main_v5) := by
  after_results_simp
theorem s1_keep_v6 (V : Valuation τ sig (Elt F)) : after hostOps0_1 V (Proc.devRef .tc main_v6) = V (Proc.devRef .tc main_v6) := by
  after_results_simp
theorem s1_keep_arg0 (V : Valuation τ sig (Elt F)) : after hostOps0_1 V (Proc.devRef .tc main_arg0) = V (Proc.devRef .tc main_arg0) := by
  after_results_simp
theorem s1_keep_arg2 (V : Valuation τ sig (Elt F)) : after hostOps0_1 V (Proc.devRef .tc main_arg2) = V (Proc.devRef .tc main_arg2) := by
  after_results_simp
theorem s1_keep_arg3 (V : Valuation τ sig (Elt F)) : after hostOps0_1 V (Proc.devRef .tc main_arg3) = V (Proc.devRef .tc main_arg3) := by
  after_results_simp
theorem s1_keep_arg4 (V : Valuation τ sig (Elt F)) : after hostOps0_1 V (Proc.devRef .tc main_arg4) = V (Proc.devRef .tc main_arg4) := by
  after_results_simp
theorem s1_keep_arg5 (V : Valuation τ sig (Elt F)) : after hostOps0_1 V (Proc.devRef .tc main_arg5) = V (Proc.devRef .tc main_arg5) := by
  after_results_simp

/-! ## The edge weights -/

theorem s2_norm (V : Valuation τ sig (Elt F)) : after hostOps0_2 V (Proc.devRef .tc main_v29)
    = mulf (Host.gather gather_S100000_S3300000x1_S3300000_n_0_n_n_0_1_1 (V (Proc.devRef .tc main_v14)) (wrap (V (Proc.devRef .tc main_v5))))
        (Host.gather gather_S100000_S3300000x1_S3300000_n_0_n_n_0_1_1 (V (Proc.devRef .tc main_v14)) (wrap (V (Proc.devRef .tc main_v6)))) := by
  after_results_simp
  rfl
theorem s2_keep_v5 (V : Valuation τ sig (Elt F)) : after hostOps0_2 V (Proc.devRef .tc main_v5) = V (Proc.devRef .tc main_v5) := by
  after_results_simp
theorem s2_keep_v6 (V : Valuation τ sig (Elt F)) : after hostOps0_2 V (Proc.devRef .tc main_v6) = V (Proc.devRef .tc main_v6) := by
  after_results_simp
theorem s2_keep_arg0 (V : Valuation τ sig (Elt F)) : after hostOps0_2 V (Proc.devRef .tc main_arg0) = V (Proc.devRef .tc main_arg0) := by
  after_results_simp
theorem s2_keep_arg2 (V : Valuation τ sig (Elt F)) : after hostOps0_2 V (Proc.devRef .tc main_arg2) = V (Proc.devRef .tc main_arg2) := by
  after_results_simp
theorem s2_keep_arg3 (V : Valuation τ sig (Elt F)) : after hostOps0_2 V (Proc.devRef .tc main_arg3) = V (Proc.devRef .tc main_arg3) := by
  after_results_simp
theorem s2_keep_arg4 (V : Valuation τ sig (Elt F)) : after hostOps0_2 V (Proc.devRef .tc main_arg4) = V (Proc.devRef .tc main_arg4) := by
  after_results_simp
theorem s2_keep_arg5 (V : Valuation τ sig (Elt F)) : after hostOps0_2 V (Proc.devRef .tc main_arg5) = V (Proc.devRef .tc main_arg5) := by
  after_results_simp

/-! ## After the first region: the aggregation at width 16, then the clamp -/

theorem t1_agg (V : Valuation τ sig (Elt F)) : after hostOps1 V (Proc.devRef .tc main_v46)
    = agg16 (V (Proc.devRef .tc main_v30)) (V (Proc.devRef .tc main_v5)) (V (Proc.devRef .tc main_v6)) (V (Proc.devRef .tc main_v29)) (V (Proc.devRef .tc main_arg3)) := by
  after_results_simp
  rfl
theorem t1_keep_v5 (V : Valuation τ sig (Elt F)) : after hostOps1 V (Proc.devRef .tc main_v5) = V (Proc.devRef .tc main_v5) := by
  after_results_simp
theorem t1_keep_v6 (V : Valuation τ sig (Elt F)) : after hostOps1 V (Proc.devRef .tc main_v6) = V (Proc.devRef .tc main_v6) := by
  after_results_simp
theorem t1_keep_v29 (V : Valuation τ sig (Elt F)) : after hostOps1 V (Proc.devRef .tc main_v29) = V (Proc.devRef .tc main_v29) := by
  after_results_simp
theorem t1_keep_arg4 (V : Valuation τ sig (Elt F)) : after hostOps1 V (Proc.devRef .tc main_arg4) = V (Proc.devRef .tc main_arg4) := by
  after_results_simp
theorem t1_keep_arg5 (V : Valuation τ sig (Elt F)) : after hostOps1 V (Proc.devRef .tc main_arg5) = V (Proc.devRef .tc main_arg5) := by
  after_results_simp
theorem t2_relu (V : Valuation τ sig (Elt F)) : after hostOps1_1 V (Proc.devRef .tc main_v47) = relu16 (V (Proc.devRef .tc main_v46)) := by
  after_results_simp
  rfl
theorem t2_keep_v5 (V : Valuation τ sig (Elt F)) : after hostOps1_1 V (Proc.devRef .tc main_v5) = V (Proc.devRef .tc main_v5) := by
  after_results_simp
theorem t2_keep_v6 (V : Valuation τ sig (Elt F)) : after hostOps1_1 V (Proc.devRef .tc main_v6) = V (Proc.devRef .tc main_v6) := by
  after_results_simp
theorem t2_keep_v29 (V : Valuation τ sig (Elt F)) : after hostOps1_1 V (Proc.devRef .tc main_v29) = V (Proc.devRef .tc main_v29) := by
  after_results_simp
theorem t2_keep_arg4 (V : Valuation τ sig (Elt F)) : after hostOps1_1 V (Proc.devRef .tc main_arg4) = V (Proc.devRef .tc main_arg4) := by
  after_results_simp
theorem t2_keep_arg5 (V : Valuation τ sig (Elt F)) : after hostOps1_1 V (Proc.devRef .tc main_arg5) = V (Proc.devRef .tc main_arg5) := by
  after_results_simp

/-! ## After the second region: the aggregation at width 40 -/

theorem u_agg (V : Valuation τ sig (Elt F)) : after hostOps2 V (Proc.devRef .tc main_v64)
    = agg40 (V (Proc.devRef .tc main_v48)) (V (Proc.devRef .tc main_v5)) (V (Proc.devRef .tc main_v6)) (V (Proc.devRef .tc main_v29)) (V (Proc.devRef .tc main_arg5)) := by
  after_results_simp
  rfl

end Cert.KernelIdeal.Stretch

end
-- ==== Proof.KernelValue.lean ====
/-
  The idealized kernel's logits. @main's buffer contents at the nine segment boundaries are a fold from the launch
  memory; read at the buffers the later segments use, they are the layers of the network: after the first stretches
  the extended edge list's sources and destinations and the edge weights; after the first region `x · W1`; after
  the next stretches the hidden layer; after the second region its product with `W2`; after the last stretch the
  logits. Each host stretch is read by its lemma over arbitrary contents, at the boundary before it; each region by
  its block-to-array lemma; a buffer a segment does not write keeps its contents.
-/
import proofs.«121774_j19018115187322_1_alg».proof.Proof.KernelRun
import proofs.«121774_j19018115187322_1_alg».proof.Proof.MatmulBlocks
import proofs.«121774_j19018115187322_1_alg».proof.Proof.KernelStretches

set_option maxRecDepth 16384

noncomputable section

namespace Cert.KernelIdeal.Whole

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open Idealize.ShloMosaic.StableHlo
open Cert.Layers Cert.KernelIdeal.Stretch

variable (m : (ℓ : Loc nD τ sig) → Buf (Elt Ideal) ℓ) (ρ : Dev nD → PrngReg) (c : Dev nD)

/-! ## After the first stretch -/

theorem at1_src : W1 m ρ c (Proc.devRef .tc main_v5) = Cert.LayersK.srcF (m ((c : Thread nD τ).loc main_arg1)) := s0_src (W0 m ρ c)
theorem at1_dst : W1 m ρ c (Proc.devRef .tc main_v6) = Cert.LayersK.dstF (m ((c : Thread nD τ).loc main_arg1)) := s0_dst (W0 m ρ c)
theorem at1_pos : W1 m ρ c (Proc.devRef .tc main_v12) = cmpf .ogt (Cert.LayersK.deg (Cert.LayersK.dstF (m ((c : Thread nD τ).loc main_arg1))))
    (broadcastInDim S100000 ![] bcast_S_S100000 (constant (F := Ideal) S_ .f32 0x00000000#32)) := s0_pos (W0 m ρ c)
theorem at1_rsq : W1 m ρ c (Proc.devRef .tc main_v13) = Host.rsqrt (Cert.LayersK.deg (Cert.LayersK.dstF (m ((c : Thread nD τ).loc main_arg1)))) := s0_rsq (W0 m ρ c)
theorem at1_zero : W1 m ρ c (Proc.devRef .tc main_cst_2) = constant (F := Ideal) S_ .f32 0x00000000#32 := s0_zero (W0 m ρ c)
theorem at1_arg0 : W1 m ρ c (Proc.devRef .tc main_arg0) = (m ((c : Thread nD τ).loc main_arg0)) := s0_keep_arg0 (W0 m ρ c)
theorem at1_arg2 : W1 m ρ c (Proc.devRef .tc main_arg2) = (m ((c : Thread nD τ).loc main_arg2)) := s0_keep_arg2 (W0 m ρ c)
theorem at1_arg3 : W1 m ρ c (Proc.devRef .tc main_arg3) = (m ((c : Thread nD τ).loc main_arg3)) := s0_keep_arg3 (W0 m ρ c)
theorem at1_arg4 : W1 m ρ c (Proc.devRef .tc main_arg4) = (m ((c : Thread nD τ).loc main_arg4)) := s0_keep_arg4 (W0 m ρ c)
theorem at1_arg5 : W1 m ρ c (Proc.devRef .tc main_arg5) = (m ((c : Thread nD τ).loc main_arg5)) := s0_keep_arg5 (W0 m ρ c)

/-! ## After the selection -/

theorem at2_dis : W2 m ρ c (Proc.devRef .tc main_v14) = Cert.LayersK.dis (Cert.LayersK.dstF (m ((c : Thread nD τ).loc main_arg1))) := by
  refine (s1_dis (W1 m ρ c)).trans ?_
  rw [at1_pos, at1_rsq, at1_zero]
  rfl
theorem at2_src : W2 m ρ c (Proc.devRef .tc main_v5) = Cert.LayersK.srcF (m ((c : Thread nD τ).loc main_arg1)) := (s1_keep_v5 (W1 m ρ c)).trans (at1_src m ρ c)
theorem at2_dst : W2 m ρ c (Proc.devRef .tc main_v6) = Cert.LayersK.dstF (m ((c : Thread nD τ).loc main_arg1)) := (s1_keep_v6 (W1 m ρ c)).trans (at1_dst m ρ c)
theorem at2_arg0 : W2 m ρ c (Proc.devRef .tc main_arg0) = (m ((c : Thread nD τ).loc main_arg0)) := (s1_keep_arg0 (W1 m ρ c)).trans (at1_arg0 m ρ c)
theorem at2_arg2 : W2 m ρ c (Proc.devRef .tc main_arg2) = (m ((c : Thread nD τ).loc main_arg2)) := (s1_keep_arg2 (W1 m ρ c)).trans (at1_arg2 m ρ c)
theorem at2_arg3 : W2 m ρ c (Proc.devRef .tc main_arg3) = (m ((c : Thread nD τ).loc main_arg3)) := (s1_keep_arg3 (W1 m ρ c)).trans (at1_arg3 m ρ c)
theorem at2_arg4 : W2 m ρ c (Proc.devRef .tc main_arg4) = (m ((c : Thread nD τ).loc main_arg4)) := (s1_keep_arg4 (W1 m ρ c)).trans (at1_arg4 m ρ c)
theorem at2_arg5 : W2 m ρ c (Proc.devRef .tc main_arg5) = (m ((c : Thread nD τ).loc main_arg5)) := (s1_keep_arg5 (W1 m ρ c)).trans (at1_arg5 m ρ c)

/-! ## Before the first region: the edge lists, the edge weights, the arguments -/

theorem at3_src : W3 m ρ c (Proc.devRef .tc main_v5) = srcF (m ((c : Thread nD τ).loc main_arg1)) :=
  ((s2_keep_v5 (W2 m ρ c)).trans (at2_src m ρ c)).trans (Cert.LayersK.srcF_eq _)
theorem at3_dst : W3 m ρ c (Proc.devRef .tc main_v6) = dstF (m ((c : Thread nD τ).loc main_arg1)) :=
  ((s2_keep_v6 (W2 m ρ c)).trans (at2_dst m ρ c)).trans (Cert.LayersK.dstF_eq _)
theorem at3_norm : W3 m ρ c (Proc.devRef .tc main_v29) = norm (srcF (m ((c : Thread nD τ).loc main_arg1))) (dstF (m ((c : Thread nD τ).loc main_arg1))) := by
  refine (s2_norm (W2 m ρ c)).trans ?_
  rw [at2_dis, at2_src, at2_dst, ← Cert.LayersK.srcF_eq, ← Cert.LayersK.dstF_eq, ← Cert.LayersK.norm_eq]
  rfl
theorem at3_arg0 : W3 m ρ c (Proc.devRef .tc main_arg0) = (m ((c : Thread nD τ).loc main_arg0)) := (s2_keep_arg0 (W2 m ρ c)).trans (at2_arg0 m ρ c)
theorem at3_arg2 : W3 m ρ c (Proc.devRef .tc main_arg2) = (m ((c : Thread nD τ).loc main_arg2)) := (s2_keep_arg2 (W2 m ρ c)).trans (at2_arg2 m ρ c)
theorem at3_arg3 : W3 m ρ c (Proc.devRef .tc main_arg3) = (m ((c : Thread nD τ).loc main_arg3)) := (s2_keep_arg3 (W2 m ρ c)).trans (at2_arg3 m ρ c)
theorem at3_arg4 : W3 m ρ c (Proc.devRef .tc main_arg4) = (m ((c : Thread nD τ).loc main_arg4)) := (s2_keep_arg4 (W2 m ρ c)).trans (at2_arg4 m ρ c)
theorem at3_arg5 : W3 m ρ c (Proc.devRef .tc main_arg5) = (m ((c : Thread nD τ).loc main_arg5)) := (s2_keep_arg5 (W2 m ρ c)).trans (at2_arg5 m ρ c)

/-! ## After the first region: `x · W1`; everything else as it was -/

theorem at4_lin1 : W4 m ρ c (Proc.devRef .tc main_v30) = lin1 (m ((c : Thread nD τ).loc main_arg0)) (m ((c : Thread nD τ).loc main_arg2)) := by
  refine (W4_arr m ρ c 2).trans ((array0 (V3 m ρ) c).trans ?_)
  show lin1 (W3 m ρ c (Proc.devRef .tc main_arg0)) (W3 m ρ c (Proc.devRef .tc main_arg2)) = _
  rw [at3_arg0, at3_arg2]
theorem at4_src : W4 m ρ c (Proc.devRef .tc main_v5) = srcF (m ((c : Thread nD τ).loc main_arg1)) := (W4_of_ne m ρ c main_v5 (by decide)).trans (at3_src m ρ c)
theorem at4_dst : W4 m ρ c (Proc.devRef .tc main_v6) = dstF (m ((c : Thread nD τ).loc main_arg1)) := (W4_of_ne m ρ c main_v6 (by decide)).trans (at3_dst m ρ c)
theorem at4_norm : W4 m ρ c (Proc.devRef .tc main_v29) = norm (srcF (m ((c : Thread nD τ).loc main_arg1))) (dstF (m ((c : Thread nD τ).loc main_arg1))) := (W4_of_ne m ρ c main_v29 (by decide)).trans (at3_norm m ρ c)
theorem at4_arg3 : W4 m ρ c (Proc.devRef .tc main_arg3) = (m ((c : Thread nD τ).loc main_arg3)) := (W4_of_ne m ρ c main_arg3 (by decide)).trans (at3_arg3 m ρ c)
theorem at4_arg4 : W4 m ρ c (Proc.devRef .tc main_arg4) = (m ((c : Thread nD τ).loc main_arg4)) := (W4_of_ne m ρ c main_arg4 (by decide)).trans (at3_arg4 m ρ c)
theorem at4_arg5 : W4 m ρ c (Proc.devRef .tc main_arg5) = (m ((c : Thread nD τ).loc main_arg5)) := (W4_of_ne m ρ c main_arg5 (by decide)).trans (at3_arg5 m ρ c)

/-! ## Before the second region: the hidden layer -/

theorem at5_agg : W5 m ρ c (Proc.devRef .tc main_v46) = agg16 (lin1 (m ((c : Thread nD τ).loc main_arg0)) (m ((c : Thread nD τ).loc main_arg2))) (srcF (m ((c : Thread nD τ).loc main_arg1))) (dstF (m ((c : Thread nD τ).loc main_arg1))) (norm (srcF (m ((c : Thread nD τ).loc main_arg1))) (dstF (m ((c : Thread nD τ).loc main_arg1)))) (m ((c : Thread nD τ).loc main_arg3)) := by
  refine (t1_agg (W4 m ρ c)).trans ?_
  rw [Cert.LayersK.agg16_eq, at4_lin1, at4_src, at4_dst, at4_norm, at4_arg3]
theorem at6_hidden : W6 m ρ c (Proc.devRef .tc main_v47) = hidden (m ((c : Thread nD τ).loc main_arg0)) (m ((c : Thread nD τ).loc main_arg1)) (m ((c : Thread nD τ).loc main_arg2)) (m ((c : Thread nD τ).loc main_arg3)) := by
  refine (t2_relu (W5 m ρ c)).trans ?_
  rw [Cert.LayersK.relu16_eq, at5_agg]
  rfl
theorem at6_src : W6 m ρ c (Proc.devRef .tc main_v5) = srcF (m ((c : Thread nD τ).loc main_arg1)) :=
  ((t2_keep_v5 (W5 m ρ c)).trans (t1_keep_v5 (W4 m ρ c))).trans (at4_src m ρ c)
theorem at6_dst : W6 m ρ c (Proc.devRef .tc main_v6) = dstF (m ((c : Thread nD τ).loc main_arg1)) :=
  ((t2_keep_v6 (W5 m ρ c)).trans (t1_keep_v6 (W4 m ρ c))).trans (at4_dst m ρ c)
theorem at6_norm : W6 m ρ c (Proc.devRef .tc main_v29) = norm (srcF (m ((c : Thread nD τ).loc main_arg1))) (dstF (m ((c : Thread nD τ).loc main_arg1))) :=
  ((t2_keep_v29 (W5 m ρ c)).trans (t1_keep_v29 (W4 m ρ c))).trans (at4_norm m ρ c)
theorem at6_arg4 : W6 m ρ c (Proc.devRef .tc main_arg4) = (m ((c : Thread nD τ).loc main_arg4)) :=
  ((t2_keep_arg4 (W5 m ρ c)).trans (t1_keep_arg4 (W4 m ρ c))).trans (at4_arg4 m ρ c)
theorem at6_arg5 : W6 m ρ c (Proc.devRef .tc main_arg5) = (m ((c : Thread nD τ).loc main_arg5)) :=
  ((t2_keep_arg5 (W5 m ρ c)).trans (t1_keep_arg5 (W4 m ρ c))).trans (at4_arg5 m ρ c)

/-! ## After the second region: the hidden layer times `W2` -/

theorem at7_lin2 : W7 m ρ c (Proc.devRef .tc main_v48) = lin2 (hidden (m ((c : Thread nD τ).loc main_arg0)) (m ((c : Thread nD τ).loc main_arg1)) (m ((c : Thread nD τ).loc main_arg2)) (m ((c : Thread nD τ).loc main_arg3))) (m ((c : Thread nD τ).loc main_arg4)) := by
  refine (W7_arr m ρ c 2).trans ((array1 (V6 m ρ) c).trans ?_)
  show lin2 (W6 m ρ c (Proc.devRef .tc main_v47)) (W6 m ρ c (Proc.devRef .tc main_arg4)) = _
  rw [at6_hidden, at6_arg4]
theorem at7_src : W7 m ρ c (Proc.devRef .tc main_v5) = srcF (m ((c : Thread nD τ).loc main_arg1)) := (W7_of_ne m ρ c main_v5 (by decide)).trans (at6_src m ρ c)
theorem at7_dst : W7 m ρ c (Proc.devRef .tc main_v6) = dstF (m ((c : Thread nD τ).loc main_arg1)) := (W7_of_ne m ρ c main_v6 (by decide)).trans (at6_dst m ρ c)
theorem at7_norm : W7 m ρ c (Proc.devRef .tc main_v29) = norm (srcF (m ((c : Thread nD τ).loc main_arg1))) (dstF (m ((c : Thread nD τ).loc main_arg1))) := (W7_of_ne m ρ c main_v29 (by decide)).trans (at6_norm m ρ c)
theorem at7_arg5 : W7 m ρ c (Proc.devRef .tc main_arg5) = (m ((c : Thread nD τ).loc main_arg5)) := (W7_of_ne m ρ c main_arg5 (by decide)).trans (at6_arg5 m ρ c)

/-! ## Before the last region: the logits -/

theorem at8_logits : W8 m ρ c (Proc.devRef .tc main_v64) = logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (u_agg (W7 m ρ c)).trans ?_
  rw [Cert.LayersK.agg40_eq, at7_lin2, at7_src, at7_dst, at7_norm, at7_arg5]
  rfl

end Cert.KernelIdeal.Whole

end
-- ==== Proof.SoftmaxRows.lean ====
/-
  The row-wise log-softmax read at an index. Both the block-wise computation (on 5000 rows at a time) and the
  whole-array computation (on 100000 rows) give, at row p and column q, the same function of row p alone:
  the entry minus the row's maximum, minus the logarithm of the row's sum of exponentials of those differences.
-/
import proofs.«121774_j19018115187322_1_alg».proof.Proof.Gen.KernelIdeal.Skeleton
import proofs.«121774_j19018115187322_1_alg».proof.Proof.Layers
import Idealize.ShloMosaic.Lib.ValueIdx
import Idealize.ShloMosaic.Lib.ValueLayout
import Idealize.ShloMosaic.Lib.Pipeline.Value
import Idealize.ShloMosaic.PureOps.Ideal.Laws

noncomputable section

namespace Cert.Rows

open Idealize.ShloMosaic Idealize.ShloMosaic.TcCoe Idealize.ShloMosaic.ValueIdx

/-- A row's maximum, taken from -∞. -/
def rowMax (r : Fin 40 → EReal) : EReal := (Finset.univ : Finset (Fin 40)).fold max ⊥ r

/-- The row's log-softmax at column k. -/
def lsRow (r : Fin 40 → EReal) (k : Fin 40) : EReal :=
  (r k - rowMax r) - Ideal.log (∑ k' : Fin 40, Ideal.exp (r k' - rowMax r))

/-! ## Literal words -/

/-- The word of -∞ is the bottom element. -/
theorem ofBits_neg_inf : Ideal.ofBits .f32 0xFF800000#32 = (⊥ : EReal) := by simp [Ideal.ofBits, Ideal.ieee]

/-! ## Keep-dims layout steps read at an index -/

section Layout
variable {α : Type}

/-- An [m] array cast to [m, 1] reads, at (p, u), the operand at p. -/
theorem shapeCast_a_a1_apply {m : ℕ} (x : (⟨1, ![m]⟩ : Shape).Idx → α) (h : (⟨1, ![m]⟩ : Shape).ShapeCasts ⟨2, ![m, 1]⟩)
    (p : Fin m) (u : Fin 1) : shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [m, 1] array broadcast to [m, n] reads, at (p, q), the operand at (p, 0). -/
theorem broadcastTo_a1_ab_apply {m n : ℕ} (v : (⟨2, ![m, 1]⟩ : Shape).Idx → α) (h : (⟨2, ![m, 1]⟩ : Shape).Broadcasts ⟨2, ![m, n]⟩)
    (p : Fin m) (q : Fin n) : broadcastTo ⟨2, ![m, n]⟩ v h (ix2 p q) = v (ix2 p (0 : Fin 1)) := by
  refine broadcastTo_apply v h (ix2 p q) (ix2 p (0 : Fin 1)) fun ax => ?_
  match ax with
  | ⟨0, _⟩ =>
    show p.val = if m = 1 then 0 else p.val
    split
    · have := p.isLt; omega
    · rfl
  | ⟨1, _⟩ => rfl

/-- An [m] array broadcast along axis 0 into [m, 1] reads, at (p, u), the operand at p. -/
theorem broadcastInDim_a_a1_apply {m : ℕ} (x : (⟨1, ![m]⟩ : Shape).Idx → α)
    (h : (⟨1, ![m]⟩ : Shape).BroadcastsInDim ⟨2, ![m, 1]⟩ ![0]) (p : Fin m) (u : Fin 1) :
    broadcastInDim ⟨2, ![m, 1]⟩ ![0] h x (ix2 p u) = x (ix1 p) := by
  refine broadcastInDim_apply ![0] h x (ix2 p u) (ix1 p) fun ax => ?_
  match ax with
  | ⟨0, _⟩ =>
    show p.val = if m = 1 then 0 else p.val
    split
    · have := p.isLt; omega
    · rfl

/-- An [m, 1] array broadcast along axes 0, 1 into [m, n] reads, at (p, q), the operand at (p, 0). -/
theorem broadcastInDim_a1_ab_apply {m n : ℕ} (v : (⟨2, ![m, 1]⟩ : Shape).Idx → α)
    (h : (⟨2, ![m, 1]⟩ : Shape).BroadcastsInDim ⟨2, ![m, n]⟩ ![0, 1]) (p : Fin m) (q : Fin n) :
    broadcastInDim ⟨2, ![m, n]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if m = 1 then 0 else p.val
    split
    · have := p.isLt; omega
    · rfl
  | ⟨1, _⟩ => rfl

/-- The reduced index p with column k put back on axis 1 is (p, k). -/
theorem lift_ix2_axis1 {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

end Layout

/-! ## A row's maximum and a row's sum, from the two kinds of reduction -/

section Reductions
variable {m : ℕ}

/-- The fold of max from -∞ over the entries the reduced index p lifts to is the maximum of row p. -/
theorem fold_lift_eq_rowMax (x : FVec Ideal ⟨2, ![m, 40]⟩ .f32) (h : (⟨2, ![m, 40]⟩ : Shape).Reduces [1] (⟨1, ![m]⟩ : Shape))
    (p : Fin m) (b : EReal) (hb : b = ⊥) :
    (Finset.univ : Finset (Fin ((⟨2, ![m, 40]⟩ : Shape).size 1))).fold max b (x ∘ h.lift (ix1 p))
      = rowMax (fun k : Fin 40 => x (ix2 p k)) := by
  subst hb
  have hf : (x ∘ h.lift (ix1 p)) = fun k : Fin 40 => x (ix2 p k) := funext fun k => congrArg x (lift_ix2_axis1 h p k)
  unfold rowMax
  exact congrArg (fun f => Finset.fold max (⊥ : EReal) f (Finset.univ : Finset (Fin 40))) hf

/-- The sum over the entries the reduced index p lifts to is the sum over row p. -/
theorem sum_lift_eq_rowSum (y : (⟨2, ![m, 40]⟩ : Shape).Idx → EReal) (h : (⟨2, ![m, 40]⟩ : Shape).Reduces [1] (⟨1, ![m]⟩ : Shape))
    (p : Fin m) :
    (∑ k : Fin ((⟨2, ![m, 40]⟩ : Shape).size 1), y (h.lift (ix1 p) k)) = ∑ k : Fin 40, y (ix2 p k) :=
  Finset.sum_congr rfl fun k _ => congrArg y (lift_ix2_axis1 h p k)

/-- From -∞ the lane maximum over axis 1, at row p, is the row's maximum. -/
theorem multiReduction_maximumf_row (x : FVec Ideal ⟨2, ![m, 40]⟩ .f32) (h : (⟨2, ![m, 40]⟩ : Shape).Reduces [1] (⟨1, ![m]⟩ : Shape))
    (hφ : FKind.Formats .f32) (hacc : (0xFF800000#32 : BitVec 32) = FKind.maximumf.neutral .f32 hφ) (p : Fin m) :
    multiReduction .maximumf [1] (⟨1, ![m]⟩ : Shape) x 0xFF800000#32 h hφ hacc (ix1 p)
      = rowMax (fun k : Fin 40 => x (ix2 p k)) :=
  (Ideal.multiReduction_maximumf_single x _ h hφ hacc (ix1 p)).trans (fold_lift_eq_rowMax x h p _ ofBits_neg_inf)

/-- From zero the lane sum over axis 1, at row p, is the row's sum. -/
theorem multiReduction_add_row (y : FVec Ideal ⟨2, ![m, 40]⟩ .f32) (h : (⟨2, ![m, 40]⟩ : Shape).Reduces [1] (⟨1, ![m]⟩ : Shape))
    (hφ : FKind.Formats .f32) (hacc : (0x00000000#32 : BitVec 32) = FKind.add.neutral .f32 hφ) (p : Fin m) :
    multiReduction .add [1] (⟨1, ![m]⟩ : Shape) y 0x00000000#32 h hφ hacc (ix1 p) = ∑ k : Fin 40, y (ix2 p k) :=
  (Ideal.multiReduction_add_single y _ h hφ hacc (ix1 p)).trans (sum_lift_eq_rowSum y h p)

/-- From -∞ the whole-array reduce with a maximum body over axis 1, at row p, is the row's maximum. -/
theorem hostReduce_maximumf_row (x : FVec Ideal ⟨2, ![m, 40]⟩ .f32) (h' : (⟨2, ![m, 40]⟩ : Shape).ReducesTo [1] (⟨1, ![m]⟩ : Shape))
    (h : (⟨2, ![m, 40]⟩ : Shape).Reduces [1] (⟨1, ![m]⟩ : Shape)) (hu : 0 < (⟨0, ![]⟩ : Shape).numel) (p : Fin m) :
    Host.reduce FloatOps.maximumf x (constant (F := Ideal) (⟨0, ![]⟩ : Shape) .f32 0xFF800000#32) h' hu (ix1 p)
      = rowMax (fun k : Fin 40 => x (ix2 p k)) := by
  rw [Host.reduce_eq_fold_single FloatOps.maximumf x _ h' h hu]
  exact fold_lift_eq_rowMax x h p _ ofBits_neg_inf

/-- From zero the whole-array reduce with an add body over axis 1, at row p, is the row's sum. -/
theorem hostReduceAdd_row (y : FVec Ideal ⟨2, ![m, 40]⟩ .f32) (h' : (⟨2, ![m, 40]⟩ : Shape).ReducesTo [1] (⟨1, ![m]⟩ : Shape))
    (h : (⟨2, ![m, 40]⟩ : Shape).Reduces [1] (⟨1, ![m]⟩ : Shape)) (hu : 0 < (⟨0, ![]⟩ : Shape).numel) (p : Fin m) :
    Host.reduceAdd y (constant (F := Ideal) (⟨0, ![]⟩ : Shape) .f32 0x00000000#32) h' hu (ix1 p)
      = ∑ k : Fin 40, y (ix2 p k) := by
  show Ideal.hostReduceAdd h' y (Ideal.ofBits .f32 0x00000000#32) (ix1 p) = _
  rw [Ideal.hostReduceAdd_single h' h, sum_lift_eq_rowSum y h p, Ideal.ofBits_zero_f32, zero_add]

end Reductions

/-! ## The block-wise computation -/

section Block
variable {m : ℕ}

/-- Every entry minus its row's maximum, with the maximum taken by a lane reduction, kept as a unit column and
    broadcast back over the row. -/
theorem block_shifted (x : FVec Ideal ⟨2, ![m, 40]⟩ .f32) (hr : (⟨2, ![m, 40]⟩ : Shape).Reduces [1] (⟨1, ![m]⟩ : Shape))
    (hφ : FKind.Formats .f32) (hacc : (0xFF800000#32 : BitVec 32) = FKind.maximumf.neutral .f32 hφ)
    (hc : (⟨1, ![m]⟩ : Shape).ShapeCasts ⟨2, ![m, 1]⟩) (hb : (⟨2, ![m, 1]⟩ : Shape).Broadcasts ⟨2, ![m, 40]⟩)
    (p : Fin m) (k : Fin 40) :
    subf x (broadcastTo ⟨2, ![m, 40]⟩ (shapeCast ⟨2, ![m, 1]⟩
        (multiReduction .maximumf [1] (⟨1, ![m]⟩ : Shape) x 0xFF800000#32 hr hφ hacc) hc) hb) (ix2 p k)
      = x (ix2 p k) - rowMax (fun k' : Fin 40 => x (ix2 p k')) := by
  rw [subf_apply, broadcastTo_a1_ab_apply, shapeCast_a_a1_apply, multiReduction_maximumf_row]

/-- The block-wise log-softmax at (p, q): the shifted entry minus the logarithm of the row's sum of exponentials of
    the shifted entries, the sum taken by a lane reduction, kept as a unit column and broadcast back over the row. -/
theorem block_logSoftmax (x : FVec Ideal ⟨2, ![m, 40]⟩ .f32) (hr : (⟨2, ![m, 40]⟩ : Shape).Reduces [1] (⟨1, ![m]⟩ : Shape))
    (hφ : FKind.Formats .f32) (hacc0 : (0x00000000#32 : BitVec 32) = FKind.add.neutral .f32 hφ)
    (hc : (⟨1, ![m]⟩ : Shape).ShapeCasts ⟨2, ![m, 1]⟩) (hb : (⟨2, ![m, 1]⟩ : Shape).Broadcasts ⟨2, ![m, 40]⟩)
    (S : FVec Ideal ⟨2, ![m, 40]⟩ .f32) (p : Fin m) (q : Fin 40)
    (hS : ∀ k : Fin 40, S (ix2 p k) = x (ix2 p k) - rowMax (fun k' : Fin 40 => x (ix2 p k'))) :
    subf S (broadcastTo ⟨2, ![m, 40]⟩ (log (shapeCast ⟨2, ![m, 1]⟩
        (multiReduction .add [1] (⟨1, ![m]⟩ : Shape) (exp S) 0x00000000#32 hr hφ hacc0) hc)) hb) (ix2 p q)
      = lsRow (fun k : Fin 40 => x (ix2 p k)) q := by
  rw [subf_apply, broadcastTo_a1_ab_apply]
  show S (ix2 p q) - Ideal.log (shapeCast ⟨2, ![m, 1]⟩
      (multiReduction .add [1] (⟨1, ![m]⟩ : Shape) (exp S) 0x00000000#32 hr hφ hacc0) hc (ix2 p (0 : Fin 1))) = _
  rw [shapeCast_a_a1_apply, multiReduction_add_row, hS q]
  unfold lsRow
  refine congrArg (fun s : EReal => _ - Ideal.log s) (Finset.sum_congr rfl fun k _ => ?_)
  show Ideal.exp (S (ix2 p k)) = _
  rw [hS k]

end Block

/-! ## The whole-array computation -/

section Whole
variable {m : ℕ}

/-- Every entry minus its row's maximum, with the maximum taken by a reduce from -∞, compared once more against -∞,
    kept as a unit column and broadcast back over the row. -/
theorem whole_shifted (a : FVec Ideal ⟨2, ![m, 40]⟩ .f32)
    (h' : (⟨2, ![m, 40]⟩ : Shape).ReducesTo [1] (⟨1, ![m]⟩ : Shape))
    (h : (⟨2, ![m, 40]⟩ : Shape).Reduces [1] (⟨1, ![m]⟩ : Shape)) (hu : 0 < (⟨0, ![]⟩ : Shape).numel)
    (hb0 : (⟨0, ![]⟩ : Shape).BroadcastsInDim ⟨1, ![m]⟩ ![])
    (hb1 : (⟨1, ![m]⟩ : Shape).BroadcastsInDim ⟨2, ![m, 1]⟩ ![0])
    (hb2 : (⟨2, ![m, 1]⟩ : Shape).BroadcastsInDim ⟨2, ![m, 40]⟩ ![0, 1]) (p : Fin m) (k : Fin 40) :
    subf a (broadcastInDim ⟨2, ![m, 40]⟩ ![0, 1] hb2 (broadcastInDim ⟨2, ![m, 1]⟩ ![0] hb1
        (maximumf (broadcastInDim ⟨1, ![m]⟩ ![] hb0 (constant (F := Ideal) (⟨0, ![]⟩ : Shape) .f32 0xFF800000#32))
          (Host.reduce FloatOps.maximumf a (constant (F := Ideal) (⟨0, ![]⟩ : Shape) .f32 0xFF800000#32) h' hu)))) (ix2 p k)
      = a (ix2 p k) - rowMax (fun k' : Fin 40 => a (ix2 p k')) := by
  rw [subf_apply, broadcastInDim_a1_ab_apply, broadcastInDim_a_a1_apply, maximumf_apply,
    hostReduce_maximumf_row a h' h hu p]
  have hbot : broadcastInDim ⟨1, ![m]⟩ ![] hb0 (constant (F := Ideal) (⟨0, ![]⟩ : Shape) .f32 0xFF800000#32) (ix1 p)
      = (⊥ : EReal) := ofBits_neg_inf
  rw [hbot, max_bot_left]

/-- The whole-array log-softmax at (p, q): the shifted entry minus the logarithm of the row's sum of exponentials of
    the shifted entries, the sum taken by a reduce from zero, kept as a unit column and broadcast back over the row. -/
theorem whole_logSoftmax (a : FVec Ideal ⟨2, ![m, 40]⟩ .f32)
    (h' : (⟨2, ![m, 40]⟩ : Shape).ReducesTo [1] (⟨1, ![m]⟩ : Shape))
    (h : (⟨2, ![m, 40]⟩ : Shape).Reduces [1] (⟨1, ![m]⟩ : Shape)) (hu : 0 < (⟨0, ![]⟩ : Shape).numel)
    (hb1 : (⟨1, ![m]⟩ : Shape).BroadcastsInDim ⟨2, ![m, 1]⟩ ![0])
    (hb2 : (⟨2, ![m, 1]⟩ : Shape).BroadcastsInDim ⟨2, ![m, 40]⟩ ![0, 1])
    (S : FVec Ideal ⟨2, ![m, 40]⟩ .f32) (p : Fin m) (q : Fin 40)
    (hS : ∀ k : Fin 40, S (ix2 p k) = a (ix2 p k) - rowMax (fun k' : Fin 40 => a (ix2 p k'))) :
    subf S (broadcastInDim ⟨2, ![m, 40]⟩ ![0, 1] hb2 (Host.log (broadcastInDim ⟨2, ![m, 1]⟩ ![0] hb1
        (Host.reduceAdd (Host.exp S) (constant (F := Ideal) (⟨0, ![]⟩ : Shape) .f32 0x00000000#32) h' hu)))) (ix2 p q)
      = lsRow (fun k : Fin 40 => a (ix2 p k)) q := by
  rw [subf_apply, broadcastInDim_a1_ab_apply]
  show S (ix2 p q) - Ideal.log (broadcastInDim ⟨2, ![m, 1]⟩ ![0] hb1
      (Host.reduceAdd (Host.exp S) (constant (F := Ideal) (⟨0, ![]⟩ : Shape) .f32 0x00000000#32) h' hu) (ix2 p (0 : Fin 1))) = _
  rw [broadcastInDim_a_a1_apply, hostReduceAdd_row _ h' h hu p, hS q]
  unfold lsRow
  refine congrArg (fun s : EReal => _ - Ideal.log s) (Finset.sum_congr rfl fun k _ => ?_)
  show Ideal.exp (S (ix2 p k)) = _
  rw [hS k]

end Whole

/-- On a 5000-row block: the body's result at (p, q) is the log-softmax of row p of the block, at column q. -/
theorem softmax_block (x : Vec Ideal Cert.KernelIdeal.S5000x40 .f32) (j : Cert.KernelIdeal.S5000x40.Idx) :
    Cert.KernelIdeal.Gen.k2_pay1 (F := Ideal) x j = lsRow (fun k : Fin 40 => x (ix2 (j 0) k)) (j 1) := by
  obtain ⟨p, q, rfl⟩ : ∃ (p : Fin 5000) (q : Fin 40), j = ix2 p q := ⟨j 0, j 1, eq_ix2 j⟩
  unfold Cert.KernelIdeal.Gen.k2_pay1
  dsimp only
  rw [shapeCast_self]
  exact block_logSoftmax x _ _ _ _ _ _ p q fun k => block_shifted x _ _ _ _ _ p k

/-- On the whole array: the host's log-softmax at (p, q) is the log-softmax of row p of the array, at column q. -/
theorem softmax_apply (a : Cert.ReferenceIdeal.S100000x40.Idx → EReal) (i : Cert.ReferenceIdeal.S100000x40.Idx) :
    Cert.Layers.logSoftmax (F := Ideal) a i = lsRow (fun k : Fin 40 => a (ix2 (i 0) k)) (i 1) := by
  obtain ⟨p, q, rfl⟩ : ∃ (p : Fin 100000) (q : Fin 40), i = ix2 p q := ⟨i 0, i 1, eq_ix2 i⟩
  have hr : (⟨2, ![100000, 40]⟩ : Shape).Reduces [1] (⟨1, ![100000]⟩ : Shape) := by decide
  unfold Cert.Layers.logSoftmax
  exact whole_logSoftmax a _ hr _ _ _ _ p q fun k => by
    unfold Cert.Layers.shifted
    exact whole_shifted a _ hr _ _ _ _ p k

end Cert.Rows
-- ==== Proof.SoftmaxBlocks.lean ====
/-
  The log-softmax on the vector unit, block by block, is the whole row-wise log-softmax. The region runs over 20 grid
  points; point `t` fetches rows `5000 t … 5000 t + 4999` of the logits, and for each row subtracts the row's maximum,
  then the logarithm of the row's sum of exponentials, and writes the block back as row block `t` of the output. A row
  of a block is a row of the whole array, so entry by entry the block's result is the whole array's, and the 20 blocks
  tile the 100000 rows.
-/
import proofs.«121774_j19018115187322_1_alg».proof.Proof.Gen.KernelIdeal.Frame
import proofs.«121774_j19018115187322_1_alg».proof.Proof.SoftmaxRows
import proofs.«121774_j19018115187322_1_alg».proof.Proof.MatmulBlocks

set_option maxRecDepth 16384

noncomputable section

namespace Cert.KernelIdeal.Whole

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

-- the buffer contents when the region is entered
variable (V : (c : Dev nD) → (b : Ref sig .tc) → Buf (Elt Ideal) ((c : Thread nD τ).loc b))

/-- The printed index maps over the 20 grid points: the input's row block moves with the output's; both column blocks are 0. -/
theorem idx2 : ∀ t : Fin cfg2.N, win2_0.index t (0 : Fin 2) = win2_1.index t (0 : Fin 2)
    ∧ win2_0.index t (1 : Fin 2) = 0 ∧ win2_1.index t (1 : Fin 2) = 0 ∧ win2_1.index t (0 : Fin 2) ≤ 19 :=
  (by decide +kernel : ∀ t : Fin grid2.N, _)

/-- Every row block is some point's. -/
theorem onto2 : ∀ q0 : Fin 20, ∃ t : Fin cfg2.N, win2_1.index t = ![q0.val, 0] :=
  (by decide +kernel : ∀ q0 : Fin 20, ∃ t : Fin grid2.N, win2_1.index t = ![q0.val, 0])

/-- What point `t` writes back is block `t` of the whole log-softmax of the logits as the region finds them: row `p` of
    the block is row `5000 t + p` of the array, and the row formula sees nothing but its row. -/
theorem flushed2 (c : Dev nD) (t : Fin cfg2.N) :
    (dat2 V c).flushed 1 t
      = ((cfg2.win 1).blk t).view.read (Elt Ideal) (Cert.Layers.logSoftmax (F := Ideal) (V c main_v64)) := by
  show (cfg2.win 1).cut (grid2.coords t) ((dat2 V c).after 1 t) = _
  rw [after2_1]
  unfold out2_1
  rw [View.canon_unit_zero hz]
  simp only [View.ld_unit_zero (S := S5000x40) hz]
  obtain ⟨e0, e1, e2, e3⟩ := idx2 t
  funext j
  show k2_pay1 (iblk2 V c 0 t) j
    = Cert.Layers.logSoftmax (F := Ideal) (V c main_v64) (((cfg2.win 1).blk t).view.emb j)
  rw [Cert.Rows.softmax_apply]
  refine (Cert.Rows.softmax_block (iblk2 V c 0 t) j).trans ?_
  refine congrArg₂ Cert.Rows.lsRow (funext fun k => ?_) (Fin.ext ?_)
  · show V c main_v64 (((cfg2.win 0).blk t).view.emb (ix2 (j 0) k)) = V c main_v64 (ix2 ((((cfg2.win 1).blk t).view.emb j) 0) k)
    refine congrArg (V c main_v64) ?_
    funext a; apply Fin.ext
    match a with
    | ⟨0, _⟩ => show win2_0.index t (0 : Fin 2) * 5000 + 1 * (j 0).val = win2_1.index t (0 : Fin 2) * 5000 + 1 * (j 0).val; omega
    | ⟨1, _⟩ => show win2_0.index t (1 : Fin 2) * 40 + 1 * k.val = k.val; omega
  · show (j 1).val = win2_1.index t (1 : Fin 2) * 40 + 1 * (j 1).val; omega

/-- An index of the output array is in point `t`'s block iff each coordinate is in the block's range on its axis. -/
theorem mem_blk2 (t : Fin cfg2.N) (i : S100000x40.Idx) :
    i ∈ ((cfg2.win 1).blk t).view.set ↔ ∀ a : Fin 2, win2_1.index t a * S5000x40.size a ≤ (i a).val ∧ (i a).val < win2_1.index t a * S5000x40.size a + S5000x40.size a := by
  show i ∈ ((View.whole main_v65).slice (win2_1.rect t)).set ↔ _
  rw [View.set_slice_whole, Rect.mem_set_unit]
  exact Iff.rfl

/-- The 20 row blocks tile the 100000 rows: row `r` is in the block of point `r / 5000`. -/
theorem cover2 (i : S100000x40.Idx) : ∃ t : Fin cfg2.N, (cfg2.win 1).flush t = true ∧ i ∈ ((cfg2.win 1).blk t).view.set := by
  have hi0 : (i 0).val < 100000 := (i 0).isLt
  have hi1 : (i 1).val < 40 := (i 1).isLt
  obtain ⟨t, ht⟩ := onto2 ⟨(i 0).val / 5000, by omega⟩
  have q0 : win2_1.index t (0 : Fin 2) = (i 0).val / 5000 := congrFun ht 0
  have q1 : win2_1.index t (1 : Fin 2) = 0 := congrFun ht 1
  refine ⟨t, flush2_1 t, ?_⟩
  rw [mem_blk2]
  intro a
  match a with
  | ⟨0, _⟩ => show win2_1.index t (0 : Fin 2) * 5000 ≤ (i 0).val ∧ (i 0).val < win2_1.index t (0 : Fin 2) * 5000 + 5000; omega
  | ⟨1, _⟩ => show win2_1.index t (1 : Fin 2) * 40 ≤ (i 1).val ∧ (i 1).val < win2_1.index t (1 : Fin 2) * 40 + 40; omega

/-- After the region its output array is the whole log-softmax of the array it was entered with. -/
theorem array2 (c : Dev nD) :
    (dat2 V c).arrAt 1 cfg2.N = Cert.Layers.logSoftmax (F := Ideal) (V c main_v64) :=
  (dat2 V c).arrAt_eq_of_cover 1 _ (fun t _ => flushed2 V c t) cover2

end Cert.KernelIdeal.Whole

end
-- ==== Proof.KernelResult.lean ====
/-
  The idealized kernel's result is the network of its arguments: the last region leaves the row-wise log-softmax of the
  logits it was entered with, and the run ends with every buffer at the last boundary's contents.
-/
import proofs.«121774_j19018115187322_1_alg».proof.Proof.KernelValue
import proofs.«121774_j19018115187322_1_alg».proof.Proof.SoftmaxBlocks

set_option maxRecDepth 16384

noncomputable section

namespace Cert.KernelIdeal.Whole

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open Idealize.ShloMosaic.StableHlo
open Cert.Layers

variable (m : (ℓ : Loc nD τ sig) → Buf (Elt Ideal) ℓ) (ρ : Dev nD → PrngReg) (c : Dev nD)

/-- The result array after the run is the network of the arguments as launched. -/
theorem at9_result : W9 m ρ c (Proc.devRef .tc main_v65) = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 1).trans ((array2 (V8 m ρ) c).trans ?_)
  show logSoftmax (W8 m ρ c (Proc.devRef .tc main_v64)) = _
  rw [at8_logits]
  rfl

/-- THE KERNEL'S RUN, READ: every weakly fair execution terminates with the result at the network of the arguments and
    the arguments unchanged. -/
theorem run : θ_run defs (onTc (τ := τ) (main (F := Ideal))) ⟨m, fun _ => 0, ρ⟩ (fun r => ∀ c : Dev nD,
      r.2.mem ((c.tc : Thread nD τ).loc main_v65) = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (at9_result m ρ c), (h c).2⟩) (run_result m ρ)

end Cert.KernelIdeal.Whole

end
-- ==== Proof.RefValue.lean ====
/-
  What the idealized reference computes. Its @main is a straight line of 134 host operations, read here in four
  stretches: the first linear map, the extended edge list, the degrees, the edge weights, the first aggregation and
  its clamp (63 operations, leaving the hidden layer and the two rows of the edge list); the second linear map (one
  operation); the extended edge list, degrees and edge weights once more — the same values, from the same two rows —
  and the second aggregation (55 operations); and the row-wise log-softmax (15 operations). Composed, the result
  array is the network `Layers.gcn` of the six argument arrays as launched.
-/
import proofs.«121774_j19018115187322_1_alg».proof.Proof.RefRun
import proofs.«121774_j19018115187322_1_alg».proof.Proof.Layers

noncomputable section

namespace Cert.ReferenceIdeal.RefValue

open Cert.ReferenceIdeal Cert.ReferenceIdeal.Gen Cert.ReferenceIdeal.Value Idealize.ShloMosaic Idealize.ShloMosaic.TcCoe Idealize.SL.Sem Idealize.ShloMosaic.StableHlo
open Cert.Layers

variable {F : FTy → Type} [FloatOps F]

/-- Folding a list of operations in two parts. -/
theorem after_append (l1 l2 : List (HloOp τ sig (Elt F))) (V : Valuation τ sig (Elt F)) :
    after (l1 ++ l2) V = after l2 (after l1 V) := by
  induction l1 generalizing V with
  | nil => rfl
  | cons op l ih => exact ih _

/-- The four stretches. -/
abbrev opsA : List (HloOp τ sig (Elt F)) := (ops (F := F)).take 63
abbrev opsB : List (HloOp τ sig (Elt F)) := ((ops (F := F)).drop 63).take 1
abbrev opsC : List (HloOp τ sig (Elt F)) := ((ops (F := F)).drop 64).take 55
abbrev opsD : List (HloOp τ sig (Elt F)) := (ops (F := F)).drop 119

theorem ops_split : (ops (F := F)) = opsA ++ (opsB ++ (opsC ++ opsD)) := by
  simp only [opsA, opsB, opsC, opsD, ops, List.take_succ_cons, List.take_zero, List.drop_succ_cons, List.drop_zero,
    List.cons_append, List.nil_append]

section Stretches
set_option maxRecDepth 65536
set_option maxHeartbeats 4000000

/-- After the first stretch: the hidden layer, the two rows of the edge list, and the untouched arguments. -/
theorem A_hidden (V : Valuation τ sig (Elt F)) :
    after opsA V (Proc.devRef .tc main_v47) = hidden (V (Proc.devRef .tc main_arg0)) (V (Proc.devRef .tc main_arg1))
      (V (Proc.devRef .tc main_arg2)) (V (Proc.devRef .tc main_arg3)) := by
  simp only [opsA, ops, List.take_succ_cons, List.take_zero]
  after_results_simp
  rfl
theorem A_row0 (V : Valuation τ sig (Elt F)) : after opsA V (Proc.devRef .tc main_v1) = row0 (V (Proc.devRef .tc main_arg1)) := by
  simp only [opsA, ops, List.take_succ_cons, List.take_zero]
  after_results_simp
  rfl
theorem A_row1 (V : Valuation τ sig (Elt F)) : after opsA V (Proc.devRef .tc main_v3) = row1 (V (Proc.devRef .tc main_arg1)) := by
  simp only [opsA, ops, List.take_succ_cons, List.take_zero]
  after_results_simp
  rfl
theorem A_arg4 (V : Valuation τ sig (Elt F)) : after opsA V (Proc.devRef .tc main_arg4) = V (Proc.devRef .tc main_arg4) := by
  simp only [opsA, ops, List.take_succ_cons, List.take_zero]
  after_results_simp
theorem A_arg5 (V : Valuation τ sig (Elt F)) : after opsA V (Proc.devRef .tc main_arg5) = V (Proc.devRef .tc main_arg5) := by
  simp only [opsA, ops, List.take_succ_cons, List.take_zero]
  after_results_simp

/-- The second linear map, and what it leaves alone. -/
theorem B_lin2 (W : Valuation τ sig (Elt F)) :
    after opsB W (Proc.devRef .tc main_v48) = lin2 (W (Proc.devRef .tc main_v47)) (W (Proc.devRef .tc main_arg4)) := by
  simp only [opsB, ops, List.take_succ_cons, List.take_zero, List.drop_succ_cons, List.drop_zero]
  after_results_simp
  rfl
theorem B_row0 (W : Valuation τ sig (Elt F)) : after opsB W (Proc.devRef .tc main_v1) = W (Proc.devRef .tc main_v1) := by
  simp only [opsB, ops, List.take_succ_cons, List.take_zero, List.drop_succ_cons, List.drop_zero]
  after_results_simp
theorem B_row1 (W : Valuation τ sig (Elt F)) : after opsB W (Proc.devRef .tc main_v3) = W (Proc.devRef .tc main_v3) := by
  simp only [opsB, ops, List.take_succ_cons, List.take_zero, List.drop_succ_cons, List.drop_zero]
  after_results_simp
theorem B_arg5 (W : Valuation τ sig (Elt F)) : after opsB W (Proc.devRef .tc main_arg5) = W (Proc.devRef .tc main_arg5) := by
  simp only [opsB, ops, List.take_succ_cons, List.take_zero, List.drop_succ_cons, List.drop_zero]
  after_results_simp

/-- The second aggregation, from the second product, the two rows of the edge list and the bias. -/
theorem C_logits (W : Valuation τ sig (Elt F)) :
    after opsC W (Proc.devRef .tc main_v90)
      = agg40 (W (Proc.devRef .tc main_v48)) (ends (W (Proc.devRef .tc main_v1))) (ends (W (Proc.devRef .tc main_v3)))
          (norm (ends (W (Proc.devRef .tc main_v1))) (ends (W (Proc.devRef .tc main_v3)))) (W (Proc.devRef .tc main_arg5)) := by
  simp only [opsC, ops, List.take_succ_cons, List.take_zero, List.drop_succ_cons, List.drop_zero]
  after_results_simp
  rfl

/-- Contents moved to a typed buffer's own type and back are unchanged. -/
theorem ofBuf_toBuf {T : BufTy} (x : TRef sig T) (v : T.Contents (Elt F)) : x.ofBuf (x.toBuf v) = v := by
  obtain ⟨r, h, h2, h3⟩ := x
  subst h
  rfl

/-- The logits' buffer and the result's buffer with their array type. -/
abbrev tLogits : TRef sig (⟨S100000x40, .f32⟩ : BufTy) := TRef.of main_v90
abbrev tResult : TRef sig (⟨S100000x40, .f32⟩ : BufTy) := TRef.of main_v91
theorem tLogits_ofBuf (y : main_v90.ty.Contents (Elt F)) : (tLogits.ofBuf y : (⟨S100000x40, .f32⟩ : BufTy).Contents (Elt F)) = y := rfl
theorem tResult_toBuf (y : (⟨S100000x40, .f32⟩ : BufTy).Contents (Elt F)) : (tResult.toBuf y : main_v91.ty.Contents (Elt F)) = y := rfl

/-- The log-softmax of the logits (each read through its buffer's array type). -/
theorem D_softmax (W : Valuation τ sig (Elt F)) :
    after opsD W (Proc.devRef .tc main_v91) = tResult.toBuf (logSoftmax (tLogits.ofBuf (W (Proc.devRef .tc main_v90)))) := by
  simp only [opsD, ops, List.drop_succ_cons, List.drop_zero]
  after_results_simp
  simp only [ofBuf_toBuf]
  rfl

end Stretches

/-- The fold of the 134 operations over any buffer contents `V`, read at the result: the network of `V`'s arguments. -/
theorem result_eq (V : Valuation τ sig (Elt F)) :
    after ops V (Proc.devRef .tc main_v91)
      = gcn (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [ops_split, after_append, after_append, after_append, D_softmax, tResult_toBuf, tLogits_ofBuf, C_logits, B_lin2,
    B_row0, B_row1, B_arg5, A_hidden, A_row0, A_row1, A_arg4, A_arg5]
  rfl

section Arguments
set_option maxRecDepth 65536
set_option maxHeartbeats 4000000

/-- No operation writes an argument. -/
theorem keep_arg0 (V : Valuation τ sig (Elt F)) : after ops V (Proc.devRef .tc main_arg0) = V (Proc.devRef .tc main_arg0) := by
  after_results_simp
theorem keep_arg1 (V : Valuation τ sig (Elt F)) : after ops V (Proc.devRef .tc main_arg1) = V (Proc.devRef .tc main_arg1) := by
  after_results_simp
theorem keep_arg2 (V : Valuation τ sig (Elt F)) : after ops V (Proc.devRef .tc main_arg2) = V (Proc.devRef .tc main_arg2) := by
  after_results_simp
theorem keep_arg3 (V : Valuation τ sig (Elt F)) : after ops V (Proc.devRef .tc main_arg3) = V (Proc.devRef .tc main_arg3) := by
  after_results_simp
theorem keep_arg4 (V : Valuation τ sig (Elt F)) : after ops V (Proc.devRef .tc main_arg4) = V (Proc.devRef .tc main_arg4) := by
  after_results_simp
theorem keep_arg5 (V : Valuation τ sig (Elt F)) : after ops V (Proc.devRef .tc main_arg5) = V (Proc.devRef .tc main_arg5) := by
  after_results_simp

end Arguments

/-- THE REFERENCE'S RUN, READ: every weakly fair execution of @main terminates, nothing faulting, with the result at the
    network of the arguments as launched and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91)
        = gcn (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v91).trans (result_eq (launchContents m c)),
      (h c main_arg0).trans (keep_arg0 (launchContents m c)),
      (h c main_arg1).trans (keep_arg1 (launchContents m c)),
      (h c main_arg2).trans (keep_arg2 (launchContents m c)),
      (h c main_arg3).trans (keep_arg3 (launchContents m c)),
      (h c main_arg4).trans (keep_arg4 (launchContents m c)),
      (h c main_arg5).trans (keep_arg5 (launchContents m c))⟩)
    (run_seq scopedRefs_eq scopedSems_eq defs main (fun _ => ops) main_eq (fun _ => ops_sub) m ρ)

end Cert.ReferenceIdeal.RefValue

end
-- ==== Proof.lean ====
/-
  A two-layer graph convolution with a row-wise log-softmax, on 100000 nodes (500 → 16 → 40 features) and 3,200,000
  edges, written with three grid kernels — the two linear maps as block matrix products, 4000 rows of nodes at a time,
  and the log-softmax 5000 rows at a time — among host operations that gather along the edges, scale by the edge
  weights, scatter-add at the destinations and add the bias, against the same network written with whole-array
  operations, which computes the degrees and the edge weights once per layer.
  Over the extended reals the two are one function of the six arguments, `Layers.gcn`: a block of rows of a matrix
  product is the rows of the whole product (the same sum over the contracted axis, the rounding of the operands to half
  precision being the identity on exact values); a row's log-softmax depends on that row alone (the reference's extra
  maximum against -∞ and its sum's zero initial value change nothing); the edge weights computed twice are the same
  term; every other operation is the same on both sides. No law used needs finiteness, so the precondition is not opened.
  The three programs terminate, without fault, with their arguments unchanged; the idealization rewrote no operation.
-/
import proofs.«121774_j19018115187322_1_alg».proof.Defs
import proofs.«121774_j19018115187322_1_alg».proof.Proof.Gen.Kernel
import proofs.«121774_j19018115187322_1_alg».proof.Proof.Gen.Kernel.Skeleton
import proofs.«121774_j19018115187322_1_alg».proof.Proof.Gen.Kernel.Launch
import proofs.«121774_j19018115187322_1_alg».proof.Proof.Gen.Kernel.Points
import proofs.«121774_j19018115187322_1_alg».proof.Proof.Gen.Kernel.Frame
import proofs.«121774_j19018115187322_1_alg».proof.Proof.Gen.KernelIdeal
import proofs.«121774_j19018115187322_1_alg».proof.Proof.Gen.KernelIdeal.Skeleton
import proofs.«121774_j19018115187322_1_alg».proof.Proof.Gen.KernelIdeal.Launch
import proofs.«121774_j19018115187322_1_alg».proof.Proof.Gen.KernelIdeal.Points
import proofs.«121774_j19018115187322_1_alg».proof.Proof.Gen.KernelIdeal.Frame
import proofs.«121774_j19018115187322_1_alg».proof.Proof.Gen.ReferenceIdeal
import proofs.«121774_j19018115187322_1_alg».proof.Proof.Gen.Pre_finite_inputs
import proofs.«121774_j19018115187322_1_alg».proof.Proof.KernelResult
import proofs.«121774_j19018115187322_1_alg».proof.Proof.RefValue
import Idealize.ShloMosaic.Adequacy
import Idealize.ShloMosaic.Init

noncomputable section

namespace Cert.Proof

open Idealize.ShloMosaic Idealize.SL.Sem

/-- The kernel as printed, and its idealization, run and keep their arguments: the generated frames. -/
theorem frame_k : Cert.frame_Kernel := fun m ρ _ => Cert.Kernel.Gen.frame m ρ
theorem frame_ki : Cert.frame_KernelIdeal := fun m ρ _ => Cert.KernelIdeal.Gen.frame m ρ

/-- The reference runs and keeps its arguments: its run, with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- The idealization rewrote no operation. -/
theorem preserves : Cert.preserves_Kernel_KernelIdeal := trivial

/-- From memories agreeing on the arguments both runs end with the network of those arguments in their result. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
